-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S400000x64 : Shape := ⟨2, ![400000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64x64 .f32) (main_arg11 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64 .f32) (main_arg7 : FVec F S64x64 .f32) (main_arg8 : FVec F S64 .f32) (main_arg9 : FVec F S64x64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S200000x64 .f32) (main_arg1 : FVec F S200000x64 .f32) (main_arg2 : FVec F S400000x64 .f32) (main_arg3 : IVec S2x1000000 32) (main_arg4 : IVec S2x1000000 32) (main_arg5 : FVec F S64x64 .f32) (main_arg6 : FVec F S64 .f32) (main_arg7 : FVec F S64x64 .f32) (main_arg8 : FVec F S64 .f32) (main_arg9 : FVec F S64x64 .f32) (main_arg10 : FVec F S64x64 .f32) (main_arg11 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S400000x64 .f32 := Host.absf main_arg2
  let main_cst_2 : FVec F S_ .f32 := constant S_ .f32 0x7F800000#32
  let main_v10 : FVec F S400000x64 .f32 := broadcastInDim S400000x64 ![] bcast_S_S400000x64 main_cst_2
  let main_v11 : IVec S400000x64 1 := cmpf .olt main_v9 main_v10
  let main_c_3 : IVec S_ 1 := constantI S_ 1 1#1
  let main_v12 : IVec S_ 1 := (fun x v => Host.reduce IntOp.andi x v reducesTo_S400000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_v13 main_v16
-- ==== Kernel.lean ====
abbrev S200000x64 : Shape := ⟨2, ![200000, 64]⟩
abbrev S400000x64 : Shape := ⟨2, ![400000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S5000x64 : Shape := ⟨2, ![5000, 64]⟩
abbrev S10000x64 : Shape := ⟨2, ![10000, 64]⟩
abbrev S400000 : Shape := ⟨1, ![400000]⟩
abbrev S400000x1 : Shape := ⟨2, ![400000, 1]⟩
abbrev S5000x1 : Shape := ⟨2, ![5000, 1]⟩
abbrev S200000x128 : Shape := ⟨2, ![200000, 128]⟩

abbrev nBuf : Space → Nat
  | .hbm => 105
  | .vmem => 35
  | .smem => 0
  | _ => 0

abbrev bufTy : (tb : Table) → Fin (tcTables nBuf tb) → BufTy
  | .hbm, ⟨0, _⟩ => ⟨S200000x64, .f32⟩
  | .hbm, ⟨1, _⟩ => ⟨S200000x64, .f32⟩
  | .hbm, ⟨2, _⟩ => ⟨S400000x64, .f32⟩
  | .hbm, ⟨3, _⟩ => ⟨S2x1000000, .i32⟩
  | .hbm, ⟨4, _⟩ => ⟨S2x1000000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S200000x64, .bf16⟩
  | .hbm, ⟨13, _⟩ => ⟨S200000x64, .bf16⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .bf16⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .bf16⟩
  | .hbm, ⟨36, _⟩ => ⟨S1x64, .f32⟩
  | .hbm, ⟨37, _⟩ => ⟨S1x64, .f32⟩
  | .hbm, ⟨38, _⟩ => ⟨S1000000x64, .f32⟩
  | .hbm, ⟨39, _⟩ => ⟨S_, .f32⟩
  | .hbm, ⟨40, _⟩ => ⟨S200000x64, .f32⟩
  | .hbm, ⟨41, _⟩ => ⟨S1000000x1, .i32⟩
  | .hbm, ⟨42, _⟩ => ⟨S200000x64, .f32⟩
  | .hbm, ⟨43, _⟩ => ⟨S1x1000000, .i32⟩
  | .hbm, ⟨44, _⟩ => ⟨S1000000, .i32⟩
  | .hbm, ⟨45, _⟩ => ⟨S1x1000000, .i32⟩
  | .hbm, ⟨46, _⟩ => ⟨S1000000, .i32⟩
  | .hbm, ⟨47, _⟩ => ⟨S400000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S400000x64, .f32⟩
  | .hbm, ⟨59, _⟩ => ⟨S1000000x1, .i32⟩
  | .hbm, ⟨60, _⟩ => ⟨S400000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S400000, .f32⟩
  | .hbm, ⟨65, _⟩ => ⟨S1000000x1, .i32⟩
  | .hbm, ⟨66, _⟩ => ⟨S400000, .f32⟩
  | .hbm, ⟨67, _⟩ => ⟨S_, .f32⟩
  | .hbm, ⟨68, _⟩ => ⟨S400000, .f32⟩
  | .hbm, ⟨69, _⟩ => ⟨S400000, .f32⟩
  | .hbm, ⟨70, _⟩ => ⟨S_, .f32⟩
  | .hbm, ⟨71, _⟩ => ⟨S400000, .f32⟩
  | .hbm, ⟨72, _⟩ => ⟨S400000, .f32⟩
  | .hbm, ⟨73, _⟩ => ⟨S400000x1, .f32⟩
  | .hbm, ⟨74, _⟩ => ⟨S1x64, .f32⟩
  | .hbm, ⟨75, _⟩ => ⟨S400000x64, .f32⟩
  | .hbm, ⟨76, _⟩ => ⟨S200000x64, .f32⟩
  | .hbm, ⟨77, _⟩ => ⟨S200000x64, .f32⟩
  | .hbm, ⟨78, _⟩ => ⟨S200000x128, .f32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S1000000x64, .bf16⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000x64, .bf16⟩
  | .hbm, ⟨97, _⟩ => ⟨S1x64, .f32⟩
  | .hbm, ⟨98, _⟩ => ⟨S1x64, .f32⟩
  | .hbm, ⟨99, _⟩ => ⟨S1000000x64, .f32⟩
  | .hbm, ⟨100, _⟩ => ⟨S_, .f32⟩
  | .hbm, ⟨101, _⟩ => ⟨S200000x64, .f32⟩
  | .hbm, ⟨102, _⟩ => ⟨S1000000x1, .i32⟩
  | .hbm, ⟨103, _⟩ => ⟨S200000x64, .f32⟩
  | .hbm, ⟨104, _⟩ => ⟨S200000x128, .f32⟩
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .bf16⟩
  | .local _ .vmem, ⟨26, _⟩ => ⟨S5000x64, .bf16⟩
  | .local _ .vmem, ⟨27, _⟩ => ⟨S5000x64, .bf16⟩
  | .local _ .vmem, ⟨28, _⟩ => ⟨S5000x64, .bf16⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bitsLt_bf16_f32 : FTy.bits .bf16 < FTy.bits .f32
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S200000x64 : S_.BroadcastsInDim S200000x64 (![] : Fin 0 → Fin S200000x64.rank)
  inb_S10000x64_S10000x64_0_0 : ∀ a, (![0, 0] : Fin 2 → Nat) a + S10000x64.size a ≤ S10000x64.size a
  h_S10000x64 : 0 < S10000x64.numel
  bcast_S_S400000x64 : S_.BroadcastsInDim S400000x64 (![] : Fin 0 → Fin S400000x64.rank)
  bcast_S_S400000 : S_.BroadcastsInDim S400000 (![] : Fin 0 → Fin S400000.rank)
  shapeCasts_S400000_S400000x1 : S400000.ShapeCasts S400000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  slices_S400000x64_S200000x64_0_0 : S400000x64.Slices ![0, 0] S200000x64
  concatenates_S200000x64_S200000x64_S200000x128_d1 : Shape.Concatenates [S200000x64, S200000x64] S200000x128 1
  gather_S200000x64_S1000000x1_S1000000x64_1_0_n_n_0_1_164_wf : GatherDims.WF S200000x64 S1000000x1 S1000000x64 [1] [0] [] [0] [] 1 ![1, 64]
  dot_S5000x64_S64x64_S5000x64_1_0_0_1_n_n_wf : DotDims.WF S5000x64 S64x64 S5000x64 [1] [0] [0] [1] [] []
  scatter_S200000x64_S1000000x1_S1000000x64_1_0_0_1_wf : ScatterDims.WF S200000x64 S1000000x1 S1000000x64 [1] [0] [0] 1
  dot_S10000x64_S64x64_S10000x64_1_0_0_1_n_n_wf : DotDims.WF S10000x64 S64x64 S10000x64 [1] [0] [0] [1] [] []
  gather_S400000x64_S1000000x1_S1000000x64_1_0_n_n_0_1_164_wf : GatherDims.WF S400000x64 S1000000x1 S1000000x64 [1] [0] [] [0] [] 1 ![1, 64]
  scatter_S400000x64_S1000000x1_S1000000x64_1_0_0_1_wf : ScatterDims.WF S400000x64 S1000000x1 S1000000x64 [1] [0] [0] 1
  scatter_S400000_S1000000x1_S1000000_n_0_0_1_wf : ScatterDims.WF S400000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .bf16 = 32 ∨ (Rect.block (s := S1000000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .bf16 = 32 ∨ (Rect.block (s := S1000000x64) S5000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S1000000x64.size a
  hwx0_6 : ∀ i : grid0.Coords, EltTy.bits .f32 = 32 ∨ (Rect.block (s := S1000000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S400000x64.size a
  hwx1_0 : ∀ i : grid1.Coords, EltTy.bits .f32 = 32 ∨ (Rect.block (s := S400000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S400000x64.size a
  hwx1_2 : ∀ i : grid1.Coords, EltTy.bits .f32 = 32 ∨ (Rect.block (s := S400000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S400000x64.size a
  hwx2_0 : ∀ i : grid2.Coords, EltTy.bits .f32 = 32 ∨ (Rect.block (s := S400000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S400000x1.size a
  hwx2_1 : ∀ i : grid2.Coords, EltTy.bits .f32 = 32 ∨ (Rect.block (s := S400000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S400000x64.size a
  hwx2_2 : ∀ i : grid2.Coords, EltTy.bits .f32 = 32 ∨ (Rect.block (s := S400000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S400000x64.size a
  hwx2_5 : ∀ i : grid2.Coords, EltTy.bits .f32 = 32 ∨ (Rect.block (s := S400000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S1000000x64.size a
  hwx3_0 : ∀ i : grid3.Coords, EltTy.bits .bf16 = 32 ∨ (Rect.block (s := S1000000x64) S5000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S1000000x64.size a
  hwx3_1 : ∀ i : grid3.Coords, EltTy.bits .bf16 = 32 ∨ (Rect.block (s := S1000000x64) S5000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S1000000x64.size a
  hwx3_6 : ∀ i : grid3.Coords, EltTy.bits .f32 = 32 ∨ (Rect.block (s := S1000000x64) S5000x64.size (cc3_transform_6 i) (hinb3_6 i)).WholeWords (EltTy.packing .f32)

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S400000x64_S1000000x1_S1000000x64_1_0_n_n_0_1_164 : GatherDims S400000x64 S1000000x1 S1000000x64 where
  offsetDims := [1]
  collapsedSliceDims := [0]
  operandBatchingDims := []
  startIndicesBatchingDims := []
  startIndexMap := [0]
  indexVectorDim := 1
  sliceSizes := ![1, 64]
  wf := gather_S400000x64_S1000000x1_S1000000x64_1_0_n_n_0_1_164_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x64 : Shape := ⟨2, ![200000, 64]⟩
abbrev S400000x64 : Shape := ⟨2, ![400000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S400000 : Shape := ⟨1, ![400000]⟩
abbrev S400000x1 : Shape := ⟨2, ![400000, 1]⟩
abbrev S200000x128 : Shape := ⟨2, ![200000, 128]⟩

abbrev nBuf : Space → Nat
  | .hbm => 130
  | .vmem => 0
  | .smem => 0
  | _ => 0

abbrev hbmTy0_0 (i : Nat) : BufTy := match i % 128 with
  | 0 => ⟨S200000x64, .f32⟩
  | 1 => ⟨S200000x64, .f32⟩
  | 2 => ⟨S400000x64, .f32⟩
  | 3 => ⟨S2x1000000, .i32⟩
  | 4 => ⟨S2x1000000, .i32⟩
  | 5 => ⟨S64x64, .f32⟩
  | 6 => ⟨S64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S1x1000000, .i32⟩
  | 13 => ⟨S1000000, .i32⟩
  | 14 => ⟨S1x1000000, .i32⟩
  | 15 => ⟨S1000000, .i32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S1000000x64, .f32⟩
  | 35 => ⟨S1x64, .f32⟩
  | 36 => ⟨S1000000x64, .f32⟩
  | 37 => ⟨S1000000x64, .f32⟩
  | 38 => ⟨S1000000x64, .f32⟩
  | 39 => ⟨S1000000x64, .f32⟩
  | 40 => ⟨S1000000x64, .f32⟩
  | 41 => ⟨S1x64, .f32⟩
  | 42 => ⟨S1000000x64, .f32⟩
  | 43 => ⟨S1000000x64, .f32⟩
  | 44 => ⟨S_, .f32⟩
  | 45 => ⟨S200000x64, .f32⟩
  | 46 => ⟨S1000000x1, .i32⟩
  | 47 => ⟨S200000x64, .f32⟩
  | 48 => ⟨S1x1000000, .i32⟩
  | 49 => ⟨S1000000, .i32⟩
  | 50 => ⟨S1x1000000, .i32⟩
  | 51 => ⟨S1000000, .i32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x64, .f32⟩
  | 62 => ⟨S_, .f32⟩
  | 63 => ⟨S400000x64, .f32⟩
  | 64 => ⟨S1000000x1, .i32⟩
  | 65 => ⟨S400000x64, .f32⟩
  | 66 => ⟨S_, .f32⟩
  | 67 => ⟨S1000000, .f32⟩
  | 68 => ⟨S_, .f32⟩
  | 69 => ⟨S400000, .f32⟩
  | 70 => ⟨S1000000x1, .i32⟩
  | 71 => ⟨S400000, .f32⟩
  | 72 => ⟨S_, .f32⟩
  | 73 => ⟨S400000, .f32⟩
  | 74 => ⟨S400000, .f32⟩
  | 75 => ⟨S400000x1, .f32⟩
  | 76 => ⟨S400000x64, .f32⟩
  | 77 => ⟨S400000x64, .f32⟩
  | 78 => ⟨S400000x64, .f32⟩
  | 79 => ⟨S400000x64, .f32⟩
  | 80 => ⟨S1x64, .f32⟩
  | 81 => ⟨S400000x64, .f32⟩
  | 82 => ⟨S400000x64, .f32⟩
  | 83 => ⟨S200000x64, .f32⟩
  | 84 => ⟨S200000x64, .f32⟩
  | 85 => ⟨S200000x128, .f32⟩
  | 86 => ⟨S1x1000000, .i32⟩
  | 87 => ⟨S1000000, .i32⟩
  | 88 => ⟨S1x1000000, .i32⟩
  | 89 => ⟨S1000000, .i32⟩
  | 90 => ⟨S1x1000000, .i32⟩
  | 91 => ⟨S1x1000000, .i32⟩
  | 92 => ⟨S2x1000000, .i32⟩
  | 93 => ⟨S1x1000000, .i32⟩
  | 94 => ⟨S1000000, .i32⟩
  | 95 => ⟨S1x1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S1000000x64, .f32⟩
  | 116 => ⟨S1x64, .f32⟩
  | 117 => ⟨S1000000x64, .f32⟩
  | 118 => ⟨S1000000x64, .f32⟩
  | 119 => ⟨S1000000x64, .f32⟩
  | 120 => ⟨S1000000x64, .f32⟩
  | 121 => ⟨S1000000x64, .f32⟩
  | 122 => ⟨S1x64, .f32⟩
  | 123 => ⟨S1000000x64, .f32⟩
  | 124 => ⟨S1000000x64, .f32⟩
  | 125 => ⟨S_, .f32⟩
  | 126 => ⟨S200000x64, .f32⟩
  | 127 => ⟨S1000000x1, .i32⟩
  | _ => ⟨S200000x64, .f32⟩

abbrev hbmTy0_1 (i : Nat) : BufTy := match i % 128 with
  | 0 => ⟨S200000x64, .f32⟩
  | 1 => ⟨S200000x128, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_9 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_11 : Ref sig .tc := ⟨.hbm, 106, rfl⟩
abbrev main_v81 : Ref sig .tc := ⟨.hbm, 107, rfl⟩
abbrev main_v82 : Ref sig .tc := ⟨.hbm, 108, rfl⟩
abbrev main_c_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_13 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S200000x64 : S_.BroadcastsInDim S200000x64 (![] : Fin 0 → Fin S200000x64.rank)
  bcast_S_S400000x64 : S_.BroadcastsInDim S400000x64 (![] : Fin 0 → Fin S400000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  bcast_S1x64_S400000x64_0_1 : S1x64.BroadcastsInDim S400000x64 (![0, 1] : Fin 2 → Fin S400000x64.rank)
  slices_S400000x64_S200000x64_0_0 : S400000x64.Slices ![0, 0] S200000x64
  concatenates_S200000x64_S200000x64_S200000x128_d1 : Shape.Concatenates [S200000x64, S200000x64] S200000x128 1
  bcast_S1000000_S1x1000000_1 : S1000000.BroadcastsInDim S1x1000000 (![1] : Fin 1 → Fin S1x1000000.rank)
  concatenates_S1x1000000_S1x1000000_S2x1000000_d0 : Shape.Concatenates [S1x1000000, S1x1000000] S2x1000000 0
  gather_S200000x64_S1000000x1_S1000000x64_1_0_n_n_0_1_164_wf : GatherDims.WF S200000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S200000x64_S1000000x1_S1000000x64_1_0_0_1_wf : ScatterDims.WF S200000x64 S1000000x1 S1000000x64 [1] [0] [0] 1
  gather_S400000x64_S1000000x1_S1000000x64_1_0_n_n_0_1_164_wf : GatherDims.WF S400000x64 S1000000x1 S1000000x64 [1] [0] [] [0] [] 1 ![1, 64]
  scatter_S400000x64_S1000000x1_S1000000x64_1_0_0_1_wf : ScatterDims.WF S400000x64 S1000000x1 S1000000x64 [1] [0] [0] 1
  scatter_S400000_S1000000x1_S1000000_n_0_0_1_wf : ScatterDims.WF S400000 S1000000x1 S1000000 [] [0] [0] 1
  dot_S400000x64_S64x64_S400000x64_1_0_0_1_n_n_wf : DotDims.WF S400000x64 S64x64 S400000x64 [1] [0] [0] [1] [] []

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S400000x64_S1000000x1_S1000000x64_1_0_n_n_0_1_164 : GatherDims S400000x64 S1000000x1 S1000000x64 where
  offsetDims := [1]
  collapsedSliceDims := [0]
  operandBatchingDims := []
  startIndicesBatchingDims := []
  startIndexMap := [0]
  indexVectorDim := 1
  sliceSizes := ![1, 64]
  wf := gather_S400000x64_S1000000x1_S1000000x64_1_0_n_n_0_1_164_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf

class Facts : Prop extends Facts₀ where

variable [Facts]
-- ==== Proof.KernelRun.lean ====
/-
  The idealized kernel's run with its two results named.

  The program is four kernel regions among five stretches of host operations.  Every weakly fair execution
  terminates, faults nowhere, leaves the arguments as launched, and leaves every buffer that outlives the regions at
  the contents the last stretch's operations compute from the fourth region's exit contents — in particular the two
  result buffers.  The contents at each boundary are the generated fold (host operations applied to the previous
  boundary; a region's arrays at what its write-backs leave).
-/
import proofs.«123556_j34076270526866_2_alg».proof.Proof.Gen.KernelIdeal.Frame

set_option maxRecDepth 16384

noncomputable section

namespace Cert.Gnn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run_results : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)), h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.Gnn.KernelRun

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.RowMath.lean ====
/-
  The three dense row computations of the message-passing network, written once over rows and read in both
  spellings.

  A row of features r (64 lanes) meets a 64×64 weight matrix W as the vector r·W, lane q of which is the sum over k of
  r(k)·W(k, q).  The edge message of the collaborative-filtering layer is, lane by lane,
  ((rj·W1 + b1) + (ri ∘ rj)·W2) + b2 for the source row rj and the target row ri (ri ∘ rj the lane-wise product);
  the relational layer's node update is (a·s + r·W) + b for an aggregated row a, a per-row scale s, the node's own
  row r and a bias b.

  A kernel spells these on a block of rows with a matrix unit fed re-cast operands and 1×64 bias rows broadcast
  down the block; the host spells them with dot_general and length-64 biases broadcast twice.  Over the extended
  reals both are the same sums, with no finiteness asked: every lemma here only names the entries.
-/
import Idealize.ShloMosaic.PureOps.Ideal.Laws
import Idealize.ShloMosaic.Lib.ValueIdx
import Idealize.ShloMosaic.Lib.Pipeline.Value
import proofs.«123556_j34076270526866_2_alg».proof.Proof.LibPlainDot
import proofs.«123556_j34076270526866_2_alg».proof.Proof.LibRowVector
import proofs.«123556_j34076270526866_2_alg».proof.Proof.LibRowInDim
import proofs.«123556_j34076270526866_2_alg».proof.Proof.LibRowOfVector
import proofs.«123556_j34076270526866_2_alg».proof.Proof.LibKeepdims
import proofs.«123556_j34076270526866_2_alg».proof.Proof.LibColumnInDim

noncomputable section

open scoped BigOperators

namespace Cert.Gnn

open Idealize.ShloMosaic Idealize.ShloMosaic.ValueIdx

variable {R : Nat}

/-- Lane q of the row r times the matrix W. -/
def rowDot (r : Fin 64 → EReal) (W : Fin 64 → Fin 64 → EReal) (q : Fin 64) : EReal := ∑ k : Fin 64, r k * W k q

/-- Lane q of the edge message ((rj·W1 + b1) + (ri ∘ rj)·W2) + b2. -/
def msgRow (rj ri : Fin 64 → EReal) (W1 W2 : Fin 64 → Fin 64 → EReal) (b1 b2 : Fin 64 → EReal) (q : Fin 64) : EReal :=
  ((rowDot rj W1 q + b1 q) + rowDot (fun k => ri k * rj k) W2 q) + b2 q

/-- Lane q of the node update (a·s + r·W) + b. -/
def rootRow (a : Fin 64 → EReal) (s : EReal) (r : Fin 64 → EReal) (W : Fin 64 → Fin 64 → EReal) (b : Fin 64 → EReal)
    (q : Fin 64) : EReal :=
  (a q * s + rowDot r W q) + b q

/-- Row p of a matrix with 64 lanes. -/
abbrev rowOf (x : (⟨2, ![R, 64]⟩ : Shape).Idx → EReal) (p : Fin R) : Fin 64 → EReal := fun k => x (ix2 p k)

/-- A 64×64 array as a function of its two coordinates. -/
abbrev matOf (w : (⟨2, ![64, 64]⟩ : Shape).Idx → EReal) : Fin 64 → Fin 64 → EReal := fun k q => w (ix2 k q)

/-- The one row of a 1×64 array. -/
abbrev rowOf1 (b : (⟨2, ![1, 64]⟩ : Shape).Idx → EReal) : Fin 64 → EReal := fun k => b (ix2 0 k)

/-- A length-64 vector as a function of its coordinate. -/
abbrev vecOf (b : (⟨1, ![64]⟩ : Shape).Idx → EReal) : Fin 64 → EReal := fun k => b (ix1 k)

/-! ## The kernel's spellings, on a block of R rows -/

/-- The matrix unit on re-cast operands, into the zero accumulator: row p of x times w. -/
theorem kernelDot_apply (D : DotDims ⟨2, ![R, 64]⟩ ⟨2, ![64, 64]⟩ ⟨2, ![R, 64]⟩) (hD : D = DotDims.plain R 64 64)
    {φ₁ φ₂ : FTy} (x : FVec Ideal ⟨2, ![R, 64]⟩ φ₁) (w : FVec Ideal ⟨2, ![64, 64]⟩ φ₂) (p : Fin R) (q : Fin 64) :
    matmul D none x w (constant (F := Ideal) ⟨2, ![R, 64]⟩ .f32 0x00000000#32) (ix2 p q)
      = rowDot (fun k => x (ix2 p k)) (fun k q => w (ix2 k q)) q :=
  Cert.PlainDot.matmul_zero_apply D hD none x w p q

/-- The host's dot_general: the same sum. -/
theorem hostDot_apply (D : DotDims ⟨2, ![R, 64]⟩ ⟨2, ![64, 64]⟩ ⟨2, ![R, 64]⟩) (hD : D = DotDims.plain R 64 64)
    (x : FVec Ideal ⟨2, ![R, 64]⟩ .f32) (w : FVec Ideal ⟨2, ![64, 64]⟩ .f32) (p : Fin R) (q : Fin 64) :
    Host.dotGeneral D none x w (ix2 p q) = rowDot (fun k => x (ix2 p k)) (fun k q => w (ix2 k q)) q := by
  simp only [Host.dotGeneral]
  exact Cert.PlainDot.dotGeneral_apply D hD none _ x w p q

end Cert.Gnn

end
-- ==== Proof.KernelBodies.lean ====
/-
  What each kernel body stores, read at one entry of its block: row p, lane q.

  The message kernel's block of 5000 edges holds, at (p, q), lane q of the edge message of its p-th edge; the
  linear kernel's block of 10000 nodes holds lane q of the node's row times the weights; the node-update kernel's block
  of 5000 nodes holds lane q of (aggregate · scale + row · weights) + bias.  A change of float format is the identity
  over the extended reals, a 1×64 bias row broadcast down the block is read at its one row, and the matrix unit into the
  zero accumulator is the plain sum over the contracted lane.
-/
import proofs.«123556_j34076270526866_2_alg».proof.Proof.Gen.KernelIdeal.Skeleton
import proofs.«123556_j34076270526866_2_alg».proof.Proof.RowMath

noncomputable section

namespace Cert.Gnn.Bodies

open Idealize.ShloMosaic Idealize.ShloMosaic.ValueIdx Cert.KernelIdeal Cert.KernelIdeal.Gen Cert.Gnn

/-- The message kernel's payload at (p, q). -/
theorem msg_pay_apply (x0 x1 : Vec Ideal S5000x64 .bf16) (w1 w2 : Vec Ideal S64x64 .f32) (r1 r2 : Vec Ideal S1x64 .f32)
    (p : Fin 5000) (q : Fin 64) :
    k0_pay1 (F := Ideal) x0 x1 w1 w2 r1 r2 (ix2 p q)
      = msgRow (rowOf x0 p) (rowOf x1 p) (matOf w1) (matOf w2) (rowOf1 r1) (rowOf1 r2) q := by
  unfold k0_pay1 msgRow
  simp only [addf_apply]
  rw [kernelDot_apply dot_S5000x64_S64x64_S5000x64_1_0_0_1_n_n rfl, kernelDot_apply dot_S5000x64_S64x64_S5000x64_1_0_0_1_n_n rfl, Cert.RowVector.broadcastTo_row (by decide),
    Cert.RowVector.broadcastTo_row (by decide)]
  simp only [shapeCast_self, truncf_apply, extf_apply, mulf_apply]

/-- The second message kernel is the same body. -/
theorem msg_pay3_eq : @k3_pay1 = @k0_pay1 := rfl

/-- The linear kernel's payload at (p, q). -/
theorem lin_pay_apply (x : Vec Ideal S10000x64 .f32) (w : Vec Ideal S64x64 .f32) (p : Fin 10000) (q : Fin 64) :
    k1_pay1 (F := Ideal) x w (ix2 p q) = rowDot (rowOf x p) (matOf w) q := by
  unfold k1_pay1
  rw [kernelDot_apply dot_S10000x64_S64x64_S10000x64_1_0_0_1_n_n rfl]
  simp only [truncf_apply]

/-- The node-update kernel's payload at (p, q). -/
theorem root_pay_apply (x : Vec Ideal S5000x64 .f32) (w : Vec Ideal S64x64 .f32) (a : Vec Ideal S5000x64 .f32)
    (s : Vec Ideal S5000x1 .f32) (b : Vec Ideal S1x64 .f32) (p : Fin 5000) (q : Fin 64) :
    k2_pay1 (F := Ideal) x w a s b (ix2 p q)
      = rootRow (rowOf a p) (s (ix2 p (0 : Fin 1))) (rowOf x p) (matOf w) (rowOf1 b) q := by
  unfold k2_pay1 rootRow
  simp only [addf_apply, mulf_apply]
  rw [kernelDot_apply dot_S5000x64_S64x64_S5000x64_1_0_0_1_n_n rfl, Cert.RowVector.broadcastTo_row (by decide),
    Idealize.ShloMosaic.Keepdims.broadcastTo_a1_ab_apply]
  simp only [shapeCast_self, truncf_apply]

end Cert.Gnn.Bodies

end
-- ==== Proof.Region0.lean ====
/-
  The message kernel's region on the movie side: the array it leaves holds every edge's message.

  The grid has 200 points; point t stages rows 5000·t … 5000·t + 4999 of the two gathered feature arrays, the two
  whole weight matrices and the two 1×64 bias rows, and writes back the same rows of the output.  So block t of the
  output is block t of the whole-array function "the message of edge e", and the 200 blocks tile the million edges.
-/
import proofs.«123556_j34076270526866_2_alg».proof.Proof.Gen.KernelIdeal.Frame
import proofs.«123556_j34076270526866_2_alg».proof.Proof.KernelBodies

set_option maxRecDepth 16384

noncomputable section

namespace Cert.Gnn.Region0

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

/-- Every edge's message, from the gathered source rows Xj and target rows Xi. -/
def msgArr (Xj Xi : S1000000x64.Idx → EReal) (W1 : S64x64.Idx → EReal) (B1 : S1x64.Idx → EReal)
    (W2 : S64x64.Idx → EReal) (B2 : S1x64.Idx → EReal) : S1000000x64.Idx → EReal :=
  fun i => msgRow (rowOf Xj (i 0)) (rowOf Xi (i 0)) (matOf W1) (matOf W2) (rowOf1 B1) (rowOf1 B2) (i 1)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two feature arrays and the output move together down the rows; the
    weights and the bias rows stay. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 1600000 in
/-- What point t writes back is block t of the whole-array function. -/
theorem flushed_eq (c : Dev nD) (t : Fin cfg0.N) :
    (dat0 (F := Ideal) V c).flushed 6 t
      = ((cfg0.win 6).blk t).view.read (Elt Ideal)
          (msgArr (V c main_v12) (V c main_v19) (V c main_arg5) (V c main_v20) (V c main_arg7) (V c main_v21)) := by
  show (cfg0.win 6).cut (grid0.coords t) ((dat0 (F := Ideal) V c).after 6 t) = _
  rw [after0_6]
  unfold out0_6
  rw [View.canon_unit_zero origin]
  simp only [View.ld_unit_zero (S := S5000x64) origin, View.ld_unit_zero (S := S64x64) origin,
    View.ld_unit_zero (S := S1x64) origin]
  obtain ⟨e00, e01, e10, e11, e20, e21, e30, e31, e40, e41, e50, e51, e60, e61⟩ := index_maps t
  funext y
  obtain ⟨p, q, rfl⟩ : ∃ (p : Fin 5000) (q : Fin 64), y = ix2 p q := ⟨y 0, y 1, eq_ix2 y⟩
  have ht : t.val < 200 := lt_of_lt_of_eq t.isLt N_0
  have hr : t.val * 5000 + p.val < 1000000 := by have := p.isLt; omega
  have hemb : ((cfg0.win 6).blk t).view.emb (ix2 p q) = ix2 (⟨t.val * 5000 + p.val, hr⟩ : Fin 1000000) q := by
    funext a; apply Fin.ext
    match a with
    | ⟨0, _⟩ => show win0_6.index t (0 : Fin 2) * 5000 + 1 * p.val = t.val * 5000 + p.val; rw [e60]; omega
    | ⟨1, _⟩ => show win0_6.index t (1 : Fin 2) * 64 + 1 * q.val = q.val; rw [e61]; omega
  show k0_pay1 (F := Ideal) (iblk0 V c 0 t) (iblk0 V c 1 t) (iblk0 V c 2 t) (iblk0 V c 4 t) (iblk0 V c 3 t) (iblk0 V c 5 t) (ix2 p q)
    = msgArr (V c main_v12) (V c main_v19) (V c main_arg5) (V c main_v20) (V c main_arg7) (V c main_v21)
        (((cfg0.win 6).blk t).view.emb (ix2 p q))
  rw [hemb, Bodies.msg_pay_apply]
  unfold msgArr
  show msgRow (rowOf (iblk0 V c 0 t) p) (rowOf (iblk0 V c 1 t) p) (matOf (iblk0 V c 2 t)) (matOf (iblk0 V c 4 t))
      (rowOf1 (iblk0 V c 3 t)) (rowOf1 (iblk0 V c 5 t)) q
    = msgRow (rowOf (V c main_v12) ⟨t.val * 5000 + p.val, hr⟩) (rowOf (V c main_v19) ⟨t.val * 5000 + p.val, hr⟩)
      (matOf (V c main_arg5)) (matOf (V c main_arg7)) (rowOf1 (V c main_v20)) (rowOf1 (V c main_v21)) q
  have h0 : rowOf (iblk0 (F := Ideal) V c 0 t) p = rowOf (V c main_v12) ⟨t.val * 5000 + p.val, hr⟩ := by
    funext k
    show V c main_v12 (((cfg0.win 0).blk t).view.emb (ix2 p k)) = V c main_v12 (ix2 _ k)
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  have h1 : rowOf (iblk0 (F := Ideal) V c 1 t) p = rowOf (V c main_v19) ⟨t.val * 5000 + p.val, hr⟩ := by
    funext k
    show V c main_v19 (((cfg0.win 1).blk t).view.emb (ix2 p k)) = V c main_v19 (ix2 _ k)
    refine congrArg _ (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 64 + 1 * k.val = k.val; rw [e11]; omega
  have h2 : matOf (iblk0 (F := Ideal) V c 2 t) = matOf (V c main_arg5) := by
    funext k q'
    show V c main_arg5 (((cfg0.win 2).blk t).view.emb (ix2 k q')) = V c main_arg5 (ix2 k q')
    refine congrArg _ (funext fun a => Fin.ext ?_)
    match a with
    | ⟨0, _⟩ => show win0_2.index t (0 : Fin 2) * 64 + 1 * k.val = k.val; rw [e20]; omega
    | ⟨1, _⟩ => show win0_2.index t (1 : Fin 2) * 64 + 1 * q'.val = q'.val; rw [e21]; omega
  have h4 : matOf (iblk0 (F := Ideal) V c 4 t) = matOf (V c main_arg7) := by
    funext k q'
    show V c main_arg7 (((cfg0.win 4).blk t).view.emb (ix2 k q')) = V c main_arg7 (ix2 k q')
    refine congrArg _ (funext fun a => Fin.ext ?_)
    match a with
    | ⟨0, _⟩ => show win0_4.index t (0 : Fin 2) * 64 + 1 * k.val = k.val; rw [e40]; omega
    | ⟨1, _⟩ => show win0_4.index t (1 : Fin 2) * 64 + 1 * q'.val = q'.val; rw [e41]; omega
  have h3 : rowOf1 (iblk0 (F := Ideal) V c 3 t) = rowOf1 (V c main_v20) := by
    funext k
    show V c main_v20 (((cfg0.win 3).blk t).view.emb (ix2 0 k)) = V c main_v20 (ix2 0 k)
    refine congrArg _ (funext fun a => Fin.ext ?_)
    match a with
    | ⟨0, _⟩ => show win0_3.index t (0 : Fin 2) * 1 + 1 * 0 = 0; rw [e30]
    | ⟨1, _⟩ => show win0_3.index t (1 : Fin 2) * 64 + 1 * k.val = k.val; rw [e31]; omega
  have h5 : rowOf1 (iblk0 (F := Ideal) V c 5 t) = rowOf1 (V c main_v21) := by
    funext k
    show V c main_v21 (((cfg0.win 5).blk t).view.emb (ix2 0 k)) = V c main_v21 (ix2 0 k)
    refine congrArg _ (funext fun a => Fin.ext ?_)
    match a with
    | ⟨0, _⟩ => show win0_5.index t (0 : Fin 2) * 1 + 1 * 0 = 0; rw [e50]
    | ⟨1, _⟩ => show win0_5.index t (1 : Fin 2) * 64 + 1 * k.val = k.val; rw [e51]; omega
  rw [h0, h1, h2, h3, h4, h5]

/-- An index of the output is in point t's block iff each coordinate is in the block's range on its axis. -/
theorem mem_blk (t : Fin cfg0.N) (i : S1000000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v22).slice (win0_6.rect t)).set ↔ _
  rw [View.set_slice_whole, Rect.mem_set_unit]
  exact Iff.rfl

/-- Edge e of the output lies in the block of point e / 5000. -/
theorem cover (i : S1000000x64.Idx) :
    ∃ t : Fin cfg0.N, (cfg0.win 6).flush t = true ∧ i ∈ ((cfg0.win 6).blk t).view.set := by
  have hi0 : (i 0).val < 1000000 := (i 0).isLt
  have hi1 : (i 1).val < 64 := (i 1).isLt
  have hN : cfg0.N = 200 := N_0
  have hlt : (i 0).val / 5000 < cfg0.N := by rw [hN]; omega
  obtain ⟨e00, e01, e10, e11, e20, e21, e30, e31, e40, e41, e50, e51, e60, e61⟩ := index_maps ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, hlt⟩ (1 : Fin 2) * 64 ≤ (i 1).val
      ∧ (i 1).val < win0_6.index ⟨(i 0).val / 5000, hlt⟩ (1 : Fin 2) * 64 + 64
    rw [e61]; omega

/-- The array the region leaves: every edge's message, whatever the region found in the output. -/
theorem final (c : Dev nD) :
    (dat0 (F := Ideal) V c).arrAt 6 cfg0.N
      = msgArr (V c main_v12) (V c main_v19) (V c main_arg5) (V c main_v20) (V c main_arg7) (V c main_v21) :=
  (dat0 (F := Ideal) V c).arrAt_eq_of_cover 6 _ (fun t _ => flushed_eq V c t) cover

end Cert.Gnn.Region0

end
-- ==== Proof.Region1.lean ====
/-
  The linear kernel's region: the array it leaves is every node's row times the weights.

  The grid has 40 points; point t stages rows 10000·t … 10000·t + 9999 of the node features and the whole weight
  matrix, and writes back the same rows of the output.  So block t of the output is block t of the whole-array
  function "row r times the weights", and the 40 blocks tile the 400000 rows.
-/
import proofs.«123556_j34076270526866_2_alg».proof.Proof.Gen.KernelIdeal.Frame
import proofs.«123556_j34076270526866_2_alg».proof.Proof.KernelBodies

set_option maxRecDepth 16384

noncomputable section

namespace Cert.Gnn.Region1

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

/-- Every node's row times the weights. -/
def linArr (X : S400000x64.Idx → EReal) (W : S64x64.Idx → EReal) : S400000x64.Idx → EReal :=
  fun i => rowDot (rowOf X (i 0)) (matOf W) (i 1)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the features and the output move together down the rows, the weights stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function. -/
theorem flushed_eq (c : Dev nD) (t : Fin cfg1.N) :
    (dat1 (F := Ideal) V c).flushed 2 t
      = ((cfg1.win 2).blk t).view.read (Elt Ideal) (linArr (V c main_arg2) (V c main_arg9)) := by
  show (cfg1.win 2).cut (grid1.coords t) ((dat1 (F := Ideal) V c).after 2 t) = _
  rw [after1_2]
  unfold out1_2
  rw [View.canon_unit_zero origin]
  simp only [View.ld_unit_zero (S := S10000x64) origin, View.ld_unit_zero (S := S64x64) origin]
  obtain ⟨e0, e1, e2, e3, e4, e5⟩ := index_maps t
  funext y
  obtain ⟨p, q, rfl⟩ : ∃ (p : Fin 10000) (q : Fin 64), y = ix2 p q := ⟨y 0, y 1, eq_ix2 y⟩
  show k1_pay1 (F := Ideal) (iblk1 V c 0 t) (iblk1 V c 1 t) (ix2 p q)
    = linArr (V c main_arg2) (V c main_arg9) (((cfg1.win 2).blk t).view.emb (ix2 p q))
  rw [Bodies.lin_pay_apply]
  unfold linArr
  have ht : t.val < 40 := lt_of_lt_of_eq t.isLt N_1
  have hr : t.val * 10000 + p.val < 400000 := by have := p.isLt; omega
  have hemb : ((cfg1.win 2).blk t).view.emb (ix2 p q) = ix2 (⟨t.val * 10000 + p.val, hr⟩ : Fin 400000) q := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 64 + 1 * q.val = q.val; rw [e5]; omega
  rw [hemb]
  show rowDot (rowOf (iblk1 V c 0 t) p) (matOf (iblk1 V c 1 t)) q
    = rowDot (rowOf (V c main_arg2) ⟨t.val * 10000 + p.val, hr⟩) (matOf (V c main_arg9)) q
  have h0 : rowOf (iblk1 (F := Ideal) V c 0 t) p = rowOf (V c main_arg2) ⟨t.val * 10000 + p.val, hr⟩ := by
    funext k
    show V c main_arg2 (((cfg1.win 0).blk t).view.emb (ix2 p k)) = V c main_arg2 (ix2 _ k)
    refine congrArg _ (funext fun a => Fin.ext ?_)
    match a with
    | ⟨0, _⟩ => show win1_0.index t (0 : Fin 2) * 10000 + 1 * p.val = t.val * 10000 + p.val; rw [e0]; omega
    | ⟨1, _⟩ => show win1_0.index t (1 : Fin 2) * 64 + 1 * k.val = k.val; rw [e1]; omega
  have h1 : matOf (iblk1 (F := Ideal) V c 1 t) = matOf (V c main_arg9) := by
    funext k q'
    show V c main_arg9 (((cfg1.win 1).blk t).view.emb (ix2 k q')) = V c main_arg9 (ix2 k q')
    refine congrArg _ (funext fun a => Fin.ext ?_)
    match a with
    | ⟨0, _⟩ => show win1_1.index t (0 : Fin 2) * 64 + 1 * k.val = k.val; rw [e2]; omega
    | ⟨1, _⟩ => show win1_1.index t (1 : Fin 2) * 64 + 1 * q'.val = q'.val; rw [e3]; omega
  rw [h0, h1]

/-- An index of the output is in point t's block iff each coordinate is in the block's range on its axis. -/
theorem mem_blk (t : Fin cfg1.N) (i : S400000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v30).slice (win1_2.rect t)).set ↔ _
  rw [View.set_slice_whole, Rect.mem_set_unit]
  exact Iff.rfl

/-- Row r of the output lies in the block of point r / 10000. -/
theorem cover (i : S400000x64.Idx) :
    ∃ t : Fin cfg1.N, (cfg1.win 2).flush t = true ∧ i ∈ ((cfg1.win 2).blk t).view.set := by
  have hi0 : (i 0).val < 400000 := (i 0).isLt
  have hi1 : (i 1).val < 64 := (i 1).isLt
  have hN : cfg1.N = 40 := N_1
  have hlt : (i 0).val / 10000 < cfg1.N := by rw [hN]; omega
  obtain ⟨e0, e1, e2, e3, e4, e5⟩ := index_maps ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    rw [e5]; omega

/-- The array the region leaves: every node's row times the weights, whatever the region found in the output. -/
theorem final (c : Dev nD) :
    (dat1 (F := Ideal) V c).arrAt 2 cfg1.N = linArr (V c main_arg2) (V c main_arg9) :=
  (dat1 (F := Ideal) V c).arrAt_eq_of_cover 2 _ (fun t _ => flushed_eq V c t) cover

end Cert.Gnn.Region1

end
-- ==== Proof.Region2.lean ====
/-
  The node-update kernel's region: the array it leaves holds, for every node, (aggregate · scale + row · weights) + bias.

  The grid has 80 points; point t stages rows 5000·t … 5000·t + 4999 of the aggregated messages, of the per-node scale
  column and of the node features, the whole weight matrix and the 1×64 bias row, and writes back the same rows of
  the output.  So block t of the output is block t of the whole-array function, and the 80 blocks tile the 400000 nodes.
-/
import proofs.«123556_j34076270526866_2_alg».proof.Proof.Gen.KernelIdeal.Frame
import proofs.«123556_j34076270526866_2_alg».proof.Proof.KernelBodies

set_option maxRecDepth 16384

noncomputable section

namespace Cert.Gnn.Region2

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

/-- Every node's update, from the aggregated rows A, the scale column Sc and the node rows X. -/
def rootArr (A : S400000x64.Idx → EReal) (Sc : S400000x1.Idx → EReal) (X : S400000x64.Idx → EReal)
    (W : S64x64.Idx → EReal) (B : S1x64.Idx → EReal) : S400000x64.Idx → EReal :=
  fun i => rootRow (rowOf A (i 0)) (Sc (ix2 (i 0) (0 : Fin 1))) (rowOf X (i 0)) (matOf W) (rowOf1 B) (i 1)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregate, the scale column, the features and the output move together
    down the rows; the weights and the bias row stay. -/
theorem index_maps : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1600000 in
/-- What point t writes back is block t of the whole-array function. -/
theorem flushed_eq (c : Dev nD) (t : Fin cfg2.N) :
    (dat2 (F := Ideal) V c).flushed 5 t
      = ((cfg2.win 5).blk t).view.read (Elt Ideal)
          (rootArr (V c main_v40) (V c main_v49) (V c main_arg2) (V c main_arg10) (V c main_v50)) := by
  show (cfg2.win 5).cut (grid2.coords t) ((dat2 (F := Ideal) V c).after 5 t) = _
  rw [after2_5]
  unfold out2_5
  rw [View.canon_unit_zero origin]
  simp only [View.ld_unit_zero (S := S5000x64) origin, View.ld_unit_zero (S := S64x64) origin,
    View.ld_unit_zero (S := S1x64) origin, View.ld_unit_zero (S := S5000x1) origin]
  obtain ⟨e00, e01, e10, e11, e20, e21, e30, e31, e40, e41, e50, e51⟩ := index_maps t
  funext y
  obtain ⟨p, q, rfl⟩ : ∃ (p : Fin 5000) (q : Fin 64), y = ix2 p q := ⟨y 0, y 1, eq_ix2 y⟩
  have ht : t.val < 80 := lt_of_lt_of_eq t.isLt N_2
  have hr : t.val * 5000 + p.val < 400000 := by have := p.isLt; omega
  have hemb : ((cfg2.win 5).blk t).view.emb (ix2 p q) = ix2 (⟨t.val * 5000 + p.val, hr⟩ : Fin 400000) q := by
    funext a; apply Fin.ext
    match a with
    | ⟨0, _⟩ => show win2_5.index t (0 : Fin 2) * 5000 + 1 * p.val = t.val * 5000 + p.val; rw [e50]; omega
    | ⟨1, _⟩ => show win2_5.index t (1 : Fin 2) * 64 + 1 * q.val = q.val; rw [e51]; omega
  show k2_pay1 (F := Ideal) (iblk2 V c 2 t) (iblk2 V c 3 t) (iblk2 V c 0 t) (iblk2 V c 1 t) (iblk2 V c 4 t) (ix2 p q)
    = rootArr (V c main_v40) (V c main_v49) (V c main_arg2) (V c main_arg10) (V c main_v50)
        (((cfg2.win 5).blk t).view.emb (ix2 p q))
  rw [hemb, Bodies.root_pay_apply]
  unfold rootArr
  show rootRow (rowOf (iblk2 V c 0 t) p) (iblk2 V c 1 t (ix2 p (0 : Fin 1))) (rowOf (iblk2 V c 2 t) p) (matOf (iblk2 V c 3 t))
      (rowOf1 (iblk2 V c 4 t)) q
    = rootRow (rowOf (V c main_v40) ⟨t.val * 5000 + p.val, hr⟩) (V c main_v49 (ix2 (⟨t.val * 5000 + p.val, hr⟩ : Fin 400000) (0 : Fin 1)))
      (rowOf (V c main_arg2) ⟨t.val * 5000 + p.val, hr⟩) (matOf (V c main_arg10)) (rowOf1 (V c main_v50)) q
  have h0 : rowOf (iblk2 (F := Ideal) V c 0 t) p = rowOf (V c main_v40) ⟨t.val * 5000 + p.val, hr⟩ := by
    funext k
    show V c main_v40 (((cfg2.win 0).blk t).view.emb (ix2 p k)) = V c main_v40 (ix2 _ k)
    refine congrArg _ (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 64 + 1 * k.val = k.val; rw [e01]; omega
  have h1 : iblk2 (F := Ideal) V c 1 t (ix2 p (0 : Fin 1))
      = V c main_v49 (ix2 (⟨t.val * 5000 + p.val, hr⟩ : Fin 400000) (0 : Fin 1)) := by
    show V c main_v49 (((cfg2.win 1).blk t).view.emb (ix2 p (0 : Fin 1))) = V c main_v49 (ix2 _ (0 : Fin 1))
    refine congrArg _ (funext fun a => Fin.ext ?_)
    match a with
    | ⟨0, _⟩ => show win2_1.index t (0 : Fin 2) * 5000 + 1 * p.val = t.val * 5000 + p.val; rw [e10]; omega
    | ⟨1, _⟩ => show win2_1.index t (1 : Fin 2) * 1 + 1 * 0 = 0; rw [e11]
  have h2 : rowOf (iblk2 (F := Ideal) V c 2 t) p = rowOf (V c main_arg2) ⟨t.val * 5000 + p.val, hr⟩ := by
    funext k
    show V c main_arg2 (((cfg2.win 2).blk t).view.emb (ix2 p k)) = V c main_arg2 (ix2 _ k)
    refine congrArg _ (funext fun a => Fin.ext ?_)
    match a with
    | ⟨0, _⟩ => show win2_2.index t (0 : Fin 2) * 5000 + 1 * p.val = t.val * 5000 + p.val; rw [e20]; omega
    | ⟨1, _⟩ => show win2_2.index t (1 : Fin 2) * 64 + 1 * k.val = k.val; rw [e21]; omega
  have h3 : matOf (iblk2 (F := Ideal) V c 3 t) = matOf (V c main_arg10) := by
    funext k q'
    show V c main_arg10 (((cfg2.win 3).blk t).view.emb (ix2 k q')) = V c main_arg10 (ix2 k q')
    refine congrArg _ (funext fun a => Fin.ext ?_)
    match a with
    | ⟨0, _⟩ => show win2_3.index t (0 : Fin 2) * 64 + 1 * k.val = k.val; rw [e30]; omega
    | ⟨1, _⟩ => show win2_3.index t (1 : Fin 2) * 64 + 1 * q'.val = q'.val; rw [e31]; omega
  have h4 : rowOf1 (iblk2 (F := Ideal) V c 4 t) = rowOf1 (V c main_v50) := by
    funext k
    show V c main_v50 (((cfg2.win 4).blk t).view.emb (ix2 0 k)) = V c main_v50 (ix2 0 k)
    refine congrArg _ (funext fun a => Fin.ext ?_)
    match a with
    | ⟨0, _⟩ => show win2_4.index t (0 : Fin 2) * 1 + 1 * 0 = 0; rw [e40]
    | ⟨1, _⟩ => show win2_4.index t (1 : Fin 2) * 64 + 1 * k.val = k.val; rw [e41]; omega
  rw [h0, h1, h2, h3, h4]

/-- An index of the output is in point t's block iff each coordinate is in the block's range on its axis. -/
theorem mem_blk (t : Fin cfg2.N) (i : S400000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v51).slice (win2_5.rect t)).set ↔ _
  rw [View.set_slice_whole, Rect.mem_set_unit]
  exact Iff.rfl

/-- Node r of the output lies in the block of point r / 5000. -/
theorem cover (i : S400000x64.Idx) :
    ∃ t : Fin cfg2.N, (cfg2.win 5).flush t = true ∧ i ∈ ((cfg2.win 5).blk t).view.set := by
  have hi0 : (i 0).val < 400000 := (i 0).isLt
  have hi1 : (i 1).val < 64 := (i 1).isLt
  have hN : cfg2.N = 80 := N_2
  have hlt : (i 0).val / 5000 < cfg2.N := by rw [hN]; omega
  obtain ⟨e00, e01, e10, e11, e20, e21, e30, e31, e40, e41, e50, e51⟩ := index_maps ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hlt⟩ (1 : Fin 2) * 64 ≤ (i 1).val
      ∧ (i 1).val < win2_5.index ⟨(i 0).val / 5000, hlt⟩ (1 : Fin 2) * 64 + 64
    rw [e51]; omega

/-- The array the region leaves: every node's update, whatever the region found in the output. -/
theorem final (c : Dev nD) :
    (dat2 (F := Ideal) V c).arrAt 5 cfg2.N
      = rootArr (V c main_v40) (V c main_v49) (V c main_arg2) (V c main_arg10) (V c main_v50) :=
  (dat2 (F := Ideal) V c).arrAt_eq_of_cover 5 _ (fun t _ => flushed_eq V c t) cover

end Cert.Gnn.Region2

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibGatherRowwise.lean ====
/-
  A row gather and a row-wise map commute.

  Let every row of Y be one function f of the same row of X, lane by lane: Y(r, l) = f(row r of X)(l).  Gathering rows
  by start indices (one index per result row, the row axis collapsed, one whole row per slice) then reads, for result
  row n, the row "start index n, read signed, clamped into [0, K − 1]" — and the clamp depends only on the number of
  rows K, which X and Y share.  So the gathered rows of Y are f of the gathered rows of X: a per-row transform (a
  linear layer, a normalisation, an activation) may be applied to the nodes before the gather or to the edges after it.
  The two gathers may have different lane counts and different element types.
-/
import proofs.«123556_j34076270526866_2_alg».proof.Proof.LibGather

noncomputable section

namespace Cert.LibGatherRowwise

open Idealize.ShloMosaic Idealize.ShloMosaic.ValueIdx

variable {N K C C' w : Nat} {α β : Type}

/-- The gather of a row-wise image is the row-wise image of the gather, entry by entry. -/
theorem gather_rowwise
    (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (d' : GatherDims ⟨2, ![K, C']⟩ ⟨2, ![N, 1]⟩ ⟨2, ![N, C']⟩)
    (h1' : d'.offsetDims = [1]) (h2' : d'.collapsedSliceDims = [0]) (h3' : d'.operandBatchingDims = [])
    (h4' : d'.startIndicesBatchingDims = []) (h5' : d'.startIndexMap = [0]) (h6' : d'.indexVectorDim = 1)
    (h7' : d'.sliceSizes = ![1, C'])
    (hK : 0 < K) (f : (Fin C → α) → Fin C' → β)
    (X : (⟨2, ![K, C]⟩ : Shape).Idx → α) (Y : (⟨2, ![K, C']⟩ : Shape).Idx → β)
    (hY : ∀ (r : Fin K) (l : Fin C'), Y (ix2 r l) = f (fun k => X (ix2 r k)) l)
    (idx : IVec ⟨2, ![N, 1]⟩ w) (n : Fin N) (l : Fin C') :
    Host.gather d' Y idx (ix2 n l) = f (fun k => Host.gather d X idx (ix2 n k)) l := by
  rw [Cert.LibGather.gather_rows_apply d' h1' h2' h3' h4' h5' h6' h7' hK, hY]
  exact congrArg (fun g => f g l)
    (funext fun k => (Cert.LibGather.gather_rows_apply d h1 h2 h3 h4 h5 h6 h7 hK X idx n k).symm)

end Cert.LibGatherRowwise

end
-- ==== Proof.Bridge.lean ====
/-
  The four places where the kernel program and the reference spell one array differently.

  * The edge messages: a kernel region's whole-array function (row sums through the matrix unit, 1×64 bias rows) against
    the host's dot_general, length-64 biases broadcast twice, sums in the same order.
  * The relational branch transforms every node once and gathers the transformed rows; the reference gathers the rows
    and transforms every edge.  A row gather only renames rows, so the two agree entry by entry: row e of either is
    row "clamped start index of e" of the node features times the weights.
  * The mean normalisation: the kernel multiplies the aggregate by 1 / max(count, 1), the reference divides by
    max(count, 1).  The divisor is at least one, so it is not zero, and then x / d is x · d⁻¹ and 1 / d is d⁻¹ in the
    extended reals: no finiteness asked.
  * The reversed edge list: the reference stacks (targets, sources) and takes the rows apart again.
-/
import proofs.«123556_j34076270526866_2_alg».proof.Proof.Gen.ReferenceIdeal.Read
import proofs.«123556_j34076270526866_2_alg».proof.Proof.Region0
import proofs.«123556_j34076270526866_2_alg».proof.Proof.Region1
import proofs.«123556_j34076270526866_2_alg».proof.Proof.Region2
import proofs.«123556_j34076270526866_2_alg».proof.Proof.LibGather
import proofs.«123556_j34076270526866_2_alg».proof.Proof.LibGatherRowwise

set_option maxRecDepth 16384

noncomputable section

namespace Cert.Gnn.Bridge

open Idealize.ShloMosaic Idealize.ShloMosaic.TcCoe Idealize.ShloMosaic.ValueIdx
open Cert.ReferenceIdeal Cert.ReferenceIdeal.Read Cert.Gnn
open Cert.ReferenceIdeal.Facts₀ Cert.ReferenceIdeal.Facts
open Cert.Gnn.Region0 (msgArr)
open Cert.Gnn.Region1 (linArr)
open Cert.Gnn.Region2 (rootArr)

/-! ## The edge messages -/

/-- The host's spelling of the edge messages. -/
def hostMsg (xj xi : FVec Ideal S1000000x64 .f32) (W1 : FVec Ideal S64x64 .f32)
    (b1 : FVec Ideal S64 .f32) (W2 : FVec Ideal S64x64 .f32)
    (b2 : FVec Ideal S64 .f32) : FVec Ideal S1000000x64 .f32 :=
  addf (F := Ideal) (addf (F := Ideal) (addf (F := Ideal) (Host.dotGeneral (F := Ideal) dot_S1000000x64_S64x64_S1000000x64_1_0_0_1_n_n none xj W1)
      (broadcastInDim S1000000x64 ![0, 1] bcast_S1x64_S1000000x64_0_1 (broadcastInDim S1x64 ![1] bcast_S64_S1x64_1 b1)))
      (Host.dotGeneral (F := Ideal) dot_S1000000x64_S64x64_S1000000x64_1_0_0_1_n_n none (mulf (F := Ideal) xi xj) W2))
    (broadcastInDim S1000000x64 ![0, 1] bcast_S1x64_S1000000x64_0_1 (broadcastInDim S1x64 ![1] bcast_S64_S1x64_1 b2))

theorem v27_eq (x1 x3 x5 x6 x7 x8) :
    val_main_v27 (F := Ideal) x1 x3 x5 x6 x7 x8 = hostMsg (val_main_v10 x1 x3) (val_main_v17 x1 x3) x5 x6 x7 x8 := rfl

theorem v97_eq' (x0 x3 x5 x6 x7 x8) :
    val_main_v97 (F := Ideal) x0 x3 x5 x6 x7 x8 = hostMsg (val_main_v80 x0 x3) (val_main_v87 x0 x3) x5 x6 x7 x8 := rfl

/-- The host's edge messages at edge e, lane q. -/
theorem hostMsg_apply (xj xi W1 b1 W2 b2) (e : Fin 1000000) (q : Fin 64) :
    hostMsg xj xi W1 b1 W2 b2 (ix2 e q)
      = msgRow (rowOf xj e) (rowOf xi e) (matOf W1) (matOf W2) (vecOf b1) (vecOf b2) q := by
  unfold hostMsg msgRow
  simp only [addf_apply]
  rw [hostDot_apply dot_S1000000x64_S64x64_S1000000x64_1_0_0_1_n_n rfl,
    hostDot_apply dot_S1000000x64_S64x64_S1000000x64_1_0_0_1_n_n rfl,
    Cert.RowInDim.broadcastInDim_rows (by decide), Cert.RowInDim.broadcastInDim_rows (by decide),
    Cert.RowOfVector.broadcastInDim_row (by decide), Cert.RowOfVector.broadcastInDim_row (by decide)]
  rfl

/-- A kernel region's messages, fed bias rows that are reshaped vectors, are the host's. -/
theorem msg_bridge (xj xi : S1000000x64.Idx → EReal) (W1 : S64x64.Idx → EReal) (b1 : S64.Idx → EReal)
    (W2 : S64x64.Idx → EReal) (b2 : S64.Idx → EReal)
    (h : S64.ShapeCasts S1x64) :
    msgArr xj xi W1 (shapeCast S1x64 b1 h) W2 (shapeCast S1x64 b2 h) = hostMsg xj xi W1 b1 W2 b2 := by
  funext i
  obtain ⟨e, q, rfl⟩ : ∃ (e : Fin 1000000) (q : Fin 64), i = ix2 e q := ⟨i 0, i 1, eq_ix2 i⟩
  rw [hostMsg_apply]
  unfold msgArr
  have hb1 : rowOf1 (shapeCast S1x64 b1 h) = vecOf b1 := funext fun k => Cert.RowVector.shapeCast_row b1 h k
  have hb2 : rowOf1 (shapeCast S1x64 b2 h) = vecOf b2 := funext fun k => Cert.RowVector.shapeCast_row b2 h k
  show msgRow (rowOf xj e) (rowOf xi e) (matOf W1) (matOf W2) (rowOf1 (shapeCast S1x64 b1 h)) (rowOf1 (shapeCast S1x64 b2 h)) q = _
  rw [hb1, hb2]

/-! ## The relational branch: transform the nodes and gather, or gather and transform the edges -/

/-- A row gather of the transformed nodes is the transform of the gathered rows: row e of either is the row
    "start index of e, clamped" of the node features, times the weights. -/
theorem gather_lin (d : GatherDims ⟨2, ![400000, 64]⟩ ⟨2, ![1000000, 1]⟩ ⟨2, ![1000000, 64]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 64])
    (D : DotDims ⟨2, ![1000000, 64]⟩ ⟨2, ![64, 64]⟩ ⟨2, ![1000000, 64]⟩) (hD : D = DotDims.plain 1000000 64 64)
    (X : FVec Ideal ⟨2, ![400000, 64]⟩ .f32) (W : FVec Ideal ⟨2, ![64, 64]⟩ .f32) (idx : IVec ⟨2, ![1000000, 1]⟩ 32) :
    Host.gather d (linArr X W) idx = Host.dotGeneral (F := Ideal) D none (Host.gather d X idx) W := by
  funext i
  obtain ⟨e, q, rfl⟩ : ∃ (e : Fin 1000000) (q : Fin 64), i = ix2 e q := ⟨i 0, i 1, eq_ix2 i⟩
  rw [hostDot_apply D hD]
  exact Cert.LibGatherRowwise.gather_rowwise d h1 h2 h3 h4 h5 h6 h7 d h1 h2 h3 h4 h5 h6 h7 (by decide)
    (fun r q => rowDot r (matOf W) q) X (linArr X W) (fun _ _ => rfl) idx e q

/-! ## The mean normalisation and the node update -/

/-- The host's spelling of the node update, from the aggregate and the edge counts. -/
def hostRoot (agg : FVec Ideal S400000x64 .f32) (cnt : FVec Ideal S400000 .f32) (X : FVec Ideal S400000x64 .f32)
    (W : FVec Ideal S64x64 .f32) (b : FVec Ideal S64 .f32) : FVec Ideal S400000x64 .f32 :=
  addf (F := Ideal) (addf (F := Ideal)
      (Host.divf (F := Ideal) agg (broadcastInDim S400000x64 ![0, 1] bcast_S400000x1_S400000x64_0_1
        (broadcastInDim S400000x1 ![0] bcast_S400000_S400000x1_0 (maximumf (F := Ideal) cnt (val_main_v50 (F := Ideal))))))
      (Host.dotGeneral (F := Ideal) dot_S400000x64_S64x64_S400000x64_1_0_0_1_n_n none X W))
    (broadcastInDim S400000x64 ![0, 1] bcast_S1x64_S400000x64_0_1 (broadcastInDim S1x64 ![1] bcast_S64_S1x64_1 b))

theorem v59_eq (x2 x4 x9 x10 x11) :
    val_main_v59 (F := Ideal) x2 x4 x9 x10 x11 = hostRoot (val_main_v45 x2 x4 x9) (val_main_v49 x4) x2 x10 x11 := rfl

/-- The float pattern of one is the real one. -/
theorem one_bits : Ideal.ofBits .f32 0x3F800000#32 = (1 : EReal) := by
  simp [Ideal.ofBits, Ideal.ieee, -EReal.coe_mul]; norm_num

/-- Multiplying by the reciprocal of a number that is at least one is dividing by it, for every extended real. -/
theorem mul_recip_eq_div (a c : EReal) : a * Ideal.div 1 (max c 1) = Ideal.div a (max c 1) := by
  have hd : max c 1 ≠ 0 := ne_of_gt (lt_of_lt_of_le zero_lt_one (le_max_right c 1))
  unfold Ideal.div
  rw [if_neg hd, if_neg hd, one_mul]

/-- The kernel region's node update, fed the reciprocal column and the reshaped bias, is the host's. -/
theorem root_bridge (agg : FVec Ideal S400000x64 .f32) (cnt : FVec Ideal S400000 .f32) (X : FVec Ideal S400000x64 .f32)
    (W : FVec Ideal S64x64 .f32) (b : FVec Ideal S64 .f32) (h1 : S400000.ShapeCasts S400000x1) (h2 : S64.ShapeCasts S1x64) :
    rootArr agg (shapeCast S400000x1 (Host.divf (F := Ideal) (φ := .f32) (val_main_v50 (F := Ideal))
        (maximumf (F := Ideal) (φ := .f32) cnt (val_main_v50 (F := Ideal)))) h1) X W (shapeCast S1x64 b h2)
      = hostRoot agg cnt X W b := by
  funext i
  obtain ⟨n, q, rfl⟩ : ∃ (n : Fin 400000) (q : Fin 64), i = ix2 n q := ⟨i 0, i 1, eq_ix2 i⟩
  unfold hostRoot rootArr rootRow
  simp only [addf_apply]
  rw [hostDot_apply dot_S400000x64_S64x64_S400000x64_1_0_0_1_n_n rfl,
    Cert.RowInDim.broadcastInDim_rows (by decide), Cert.RowOfVector.broadcastInDim_row (by decide)]
  have hb : rowOf1 (shapeCast S1x64 b h2) q = b (ix1 q) := Cert.RowVector.shapeCast_row b h2 q
  have hs : shapeCast S400000x1 (Host.divf (F := Ideal) (φ := .f32) (val_main_v50 (F := Ideal))
        (maximumf (F := Ideal) (φ := .f32) cnt (val_main_v50 (F := Ideal)))) h1 (ix2 n (0 : Fin 1))
      = Ideal.div 1 (max (cnt (ix1 n)) 1) := by
    rw [Cert.ColumnInDim.shapeCast_column]
    show Ideal.div (Ideal.ofBits .f32 0x3F800000#32) (max (cnt (ix1 n)) (Ideal.ofBits .f32 0x3F800000#32)) = _
    rw [one_bits]
  have hd : Host.divf (F := Ideal) agg (broadcastInDim S400000x64 ![0, 1] bcast_S400000x1_S400000x64_0_1
        (broadcastInDim S400000x1 ![0] bcast_S400000_S400000x1_0 (maximumf (F := Ideal) cnt (val_main_v50 (F := Ideal))))) (ix2 n q)
      = Ideal.div (agg (ix2 n q)) (max (cnt (ix1 n)) 1) := by
    show Ideal.div (agg (ix2 n q)) _ = _
    rw [Cert.ColumnInDim.broadcastInDim_lanes, Cert.ColumnInDim.broadcastInDim_column]
    show Ideal.div (agg (ix2 n q)) (max (cnt (ix1 n)) (Ideal.ofBits .f32 0x3F800000#32)) = _
    rw [one_bits]
  show (agg (ix2 n q) * shapeCast S400000x1 _ h1 (ix2 n (0 : Fin 1)) + rowDot (rowOf X n) (matOf W) q) + rowOf1 (shapeCast S1x64 b h2) q = _
  rw [hs, hb, hd, mul_recip_eq_div]

/-! ## The reversed edge list -/

/-- Row 0 of the stacked (targets, sources) is the targets. -/
theorem v71_eq (x3) : val_main_v71 (F := Ideal) x3 = val_main_v3 x3 := by
  funext i
  rw [val_main_v71_apply, val_main_v70_apply, val_main_v3_apply, val_main_v2_apply]
  unfold val_main_v69
  rw [concatenate_pair_apply_left (0 : Fin 2) (val_main_v67 x3) (val_main_v68 x3) _ (idx_main_v70 (idx_main_v71 i)) rfl
      (idx_main_v71 i) (fun b => by match b with | ⟨0, _⟩ => rfl | ⟨1, _⟩ => rfl),
    val_main_v67_apply, val_main_v64_apply, val_main_v63_apply]
  exact congrArg x3 (funext fun a => Fin.ext (by
    match a with
    | ⟨0, _⟩ => rfl
    | ⟨1, _⟩ => show ((i 0).val % 1000000) % 1000000 = (i 0).val % 1000000; omega))

/-- Row 1 of the stacked (targets, sources) is the sources. -/
theorem v73_eq (x3) : val_main_v73 (F := Ideal) x3 = val_main_v1 x3 := by
  funext i
  rw [val_main_v73_apply, val_main_v72_apply, val_main_v1_apply, val_main_v0_apply]
  unfold val_main_v69
  rw [concatenate_pair_apply_right (0 : Fin 2) (val_main_v67 x3) (val_main_v68 x3) _ (idx_main_v72 (idx_main_v73 i)) rfl rfl
      (idx_main_v73 i) (fun b hb => by match b with | ⟨0, _⟩ => exact absurd rfl hb | ⟨1, _⟩ => rfl) rfl,
    val_main_v68_apply, val_main_v66_apply, val_main_v65_apply]
  exact congrArg x3 (funext fun a => Fin.ext (by
    match a with
    | ⟨0, _⟩ => rfl
    | ⟨1, _⟩ => show ((i 0).val % 1000000) % 1000000 = (i 0).val % 1000000; omega))

/-- On the user side the source rows are gathered at the targets of the original list … -/
theorem v80_eq (x0 x3) : val_main_v80 (F := Ideal) x0 x3 = val_main_v17 x0 x3 := by
  unfold val_main_v80 val_main_v79 val_main_v78 val_main_v77 val_main_v75
  rw [v71_eq]
  rfl

/-- … and the target rows at its sources. -/
theorem v87_eq (x0 x3) : val_main_v87 (F := Ideal) x0 x3 = val_main_v10 x0 x3 := by
  unfold val_main_v87 val_main_v86 val_main_v85 val_main_v84 val_main_v82
  rw [v73_eq]
  rfl

/-- The user side's messages, with the reversed list taken apart. -/
theorem v97_eq (x0 x3 x5 x6 x7 x8) :
    val_main_v97 (F := Ideal) x0 x3 x5 x6 x7 x8 = hostMsg (val_main_v17 x0 x3) (val_main_v10 x0 x3) x5 x6 x7 x8 := by
  rw [v97_eq', v80_eq, v87_eq]

/-- The user result, its scatter indices the sources of the original list. -/
theorem v101_eq (x0 x3 x5 x6 x7 x8) :
    val_main_v101 (F := Ideal) x0 x3 x5 x6 x7 x8
      = concatenate S200000x128 1 [⟨S200000x64, x0⟩, ⟨S200000x64,
          Host.scatterAdd (F := Ideal) (φ := .f32) scatter_S200000x64_S1000000x1_S1000000x64_1_0_0_1 (val_main_v98 (F := Ideal))
            (broadcastInDim S1000000x1 ![0] bcast_S1000000_S1000000x1_0 (val_main_v1 (F := Ideal) x3))
            (val_main_v97 (F := Ideal) x0 x3 x5 x6 x7 x8)⟩] concatenates_S200000x64_S200000x64_S200000x128_d1 := by
  unfold val_main_v101 val_main_v100 val_main_v99
  rw [v73_eq]

end Cert.Gnn.Bridge

end
-- ==== Proof.Boundaries1.lean ====
/-
  The contents of the kernel program's buffers at each boundary between host operations and kernel regions, up to the linear region's exit: each buffer that a later operation reads, as a pure term of the argument arrays, named where it coincides with one of the reference's intermediate values.
-/
import proofs.«123556_j34076270526866_2_alg».proof.Proof.Gen.KernelIdeal.Frame
import proofs.«123556_j34076270526866_2_alg».proof.Proof.Gen.ReferenceIdeal.Read
import proofs.«123556_j34076270526866_2_alg».proof.Proof.Region0
import proofs.«123556_j34076270526866_2_alg».proof.Proof.Region1
import proofs.«123556_j34076270526866_2_alg».proof.Proof.Bridge

set_option maxRecDepth 16384
set_option maxHeartbeats 2000000

noncomputable section

namespace Cert.Gnn.KV

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read
open Cert.Gnn.Region0 (msgArr)
open Cert.Gnn.Region1 (linArr)
open Cert.Gnn.Region2 (rootArr)

variable (m : (ℓ : Loc nD τ sig) → Buf (Elt Ideal) ℓ) (ρ : Dev nD → PrngReg) (c : Dev nD)

/-- One stretch of host operations back: the contents after the stretch as its operations of the contents before. -/
macro "host_step" : tactic =>
  `(tactic| (dsimp only [W1, W3, W5, W7, W9, hostOps0, hostOps1, hostOps2, hostOps3, hostOps4]; after_results))

/-! ## After the first stretch -/

theorem W1_arg0 : W1 m ρ c (Proc.devRef .tc main_arg0) = (m ((c : Thread nD τ).loc main_arg0)) := by
  host_step
  try rfl

theorem W1_arg1 : W1 m ρ c (Proc.devRef .tc main_arg1) = (m ((c : Thread nD τ).loc main_arg1)) := by
  host_step
  try rfl

theorem W1_arg2 : W1 m ρ c (Proc.devRef .tc main_arg2) = (m ((c : Thread nD τ).loc main_arg2)) := by
  host_step
  try rfl

theorem W1_arg4 : W1 m ρ c (Proc.devRef .tc main_arg4) = (m ((c : Thread nD τ).loc main_arg4)) := by
  host_step
  try rfl

theorem W1_arg5 : W1 m ρ c (Proc.devRef .tc main_arg5) = (m ((c : Thread nD τ).loc main_arg5)) := by
  host_step
  try rfl

theorem W1_arg6 : W1 m ρ c (Proc.devRef .tc main_arg6) = (m ((c : Thread nD τ).loc main_arg6)) := by
  host_step
  try rfl

theorem W1_arg7 : W1 m ρ c (Proc.devRef .tc main_arg7) = (m ((c : Thread nD τ).loc main_arg7)) := by
  host_step
  try rfl

theorem W1_arg8 : W1 m ρ c (Proc.devRef .tc main_arg8) = (m ((c : Thread nD τ).loc main_arg8)) := by
  host_step
  try rfl

theorem W1_arg9 : W1 m ρ c (Proc.devRef .tc main_arg9) = (m ((c : Thread nD τ).loc main_arg9)) := by
  host_step
  try rfl

theorem W1_arg10 : W1 m ρ c (Proc.devRef .tc main_arg10) = (m ((c : Thread nD τ).loc main_arg10)) := by
  host_step
  try rfl

theorem W1_arg11 : W1 m ρ c (Proc.devRef .tc main_arg11) = (m ((c : Thread nD τ).loc main_arg11)) := by
  host_step
  try rfl

theorem W1_v5 : W1 m ρ c (Proc.devRef .tc main_v5) = val_main_v3 (F := Ideal) (m ((c : Thread nD τ).loc main_arg3)) := by
  host_step
  try rfl

theorem W1_v3 : W1 m ρ c (Proc.devRef .tc main_v3) = val_main_v1 (F := Ideal) (m ((c : Thread nD τ).loc main_arg3)) := by
  host_step
  try rfl

theorem W1_v1 : W1 m ρ c (Proc.devRef .tc main_v1) = (truncf .bf16 (m ((c : Thread nD τ).loc main_arg0)) bitsLt_bf16_f32 : FVec Ideal S200000x64 .bf16) := by
  host_step
  try rfl

theorem W1_v12 : W1 m ρ c (Proc.devRef .tc main_v12) = val_main_v10 (F := Ideal) (m ((c : Thread nD τ).loc main_arg1)) (m ((c : Thread nD τ).loc main_arg3)) := by
  host_step
  try rfl

theorem W1_v19 : W1 m ρ c (Proc.devRef .tc main_v19) = val_main_v17 (F := Ideal) (m ((c : Thread nD τ).loc main_arg1)) (m ((c : Thread nD τ).loc main_arg3)) := by
  host_step
  try rfl

theorem W1_v20 : W1 m ρ c (Proc.devRef .tc main_v20) = shapeCast S1x64 (m ((c : Thread nD τ).loc main_arg6)) shapeCasts_S64_S1x64 := by
  host_step
  try rfl

theorem W1_v21 : W1 m ρ c (Proc.devRef .tc main_v21) = shapeCast S1x64 (m ((c : Thread nD τ).loc main_arg8)) shapeCasts_S64_S1x64 := by
  host_step
  try rfl

/-! ## At the first message region's exit -/

theorem W2_v22 : W2 m ρ c (Proc.devRef .tc main_v22) = val_main_v27 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  refine (W2_arr m ρ c 6).trans ?_
  rw [Region0.final (V1 m ρ) c]
  show msgArr (W1 m ρ c (Proc.devRef .tc main_v12)) (W1 m ρ c (Proc.devRef .tc main_v19)) (W1 m ρ c (Proc.devRef .tc main_arg5)) (W1 m ρ c (Proc.devRef .tc main_v20))
    (W1 m ρ c (Proc.devRef .tc main_arg7)) (W1 m ρ c (Proc.devRef .tc main_v21)) = _
  rw [W1_v12, W1_v19, W1_arg5, W1_v20, W1_arg7, W1_v21, Bridge.msg_bridge, Bridge.v27_eq]

theorem W2_arg0 : W2 m ρ c (Proc.devRef .tc main_arg0) = (m ((c : Thread nD τ).loc main_arg0)) := by
  rw [W2_of_ne m ρ c main_arg0 (by decide)]
  exact W1_arg0 m ρ c

theorem W2_arg1 : W2 m ρ c (Proc.devRef .tc main_arg1) = (m ((c : Thread nD τ).loc main_arg1)) := by
  rw [W2_of_ne m ρ c main_arg1 (by decide)]
  exact W1_arg1 m ρ c

theorem W2_arg2 : W2 m ρ c (Proc.devRef .tc main_arg2) = (m ((c : Thread nD τ).loc main_arg2)) := by
  rw [W2_of_ne m ρ c main_arg2 (by decide)]
  exact W1_arg2 m ρ c

theorem W2_arg4 : W2 m ρ c (Proc.devRef .tc main_arg4) = (m ((c : Thread nD τ).loc main_arg4)) := by
  rw [W2_of_ne m ρ c main_arg4 (by decide)]
  exact W1_arg4 m ρ c

theorem W2_arg5 : W2 m ρ c (Proc.devRef .tc main_arg5) = (m ((c : Thread nD τ).loc main_arg5)) := by
  refine ((W2_arr m ρ c 2).trans (((dat0 (V1 m ρ) c).arrAt_in 2 rfl _).trans (A_eq0 (V1 m ρ) c 2))).trans ?_
  exact W1_arg5 m ρ c

theorem W2_arg6 : W2 m ρ c (Proc.devRef .tc main_arg6) = (m ((c : Thread nD τ).loc main_arg6)) := by
  rw [W2_of_ne m ρ c main_arg6 (by decide)]
  exact W1_arg6 m ρ c

theorem W2_arg7 : W2 m ρ c (Proc.devRef .tc main_arg7) = (m ((c : Thread nD τ).loc main_arg7)) := by
  refine ((W2_arr m ρ c 4).trans (((dat0 (V1 m ρ) c).arrAt_in 4 rfl _).trans (A_eq0 (V1 m ρ) c 4))).trans ?_
  exact W1_arg7 m ρ c

theorem W2_arg8 : W2 m ρ c (Proc.devRef .tc main_arg8) = (m ((c : Thread nD τ).loc main_arg8)) := by
  rw [W2_of_ne m ρ c main_arg8 (by decide)]
  exact W1_arg8 m ρ c

theorem W2_arg9 : W2 m ρ c (Proc.devRef .tc main_arg9) = (m ((c : Thread nD τ).loc main_arg9)) := by
  rw [W2_of_ne m ρ c main_arg9 (by decide)]
  exact W1_arg9 m ρ c

theorem W2_arg10 : W2 m ρ c (Proc.devRef .tc main_arg10) = (m ((c : Thread nD τ).loc main_arg10)) := by
  rw [W2_of_ne m ρ c main_arg10 (by decide)]
  exact W1_arg10 m ρ c

theorem W2_arg11 : W2 m ρ c (Proc.devRef .tc main_arg11) = (m ((c : Thread nD τ).loc main_arg11)) := by
  rw [W2_of_ne m ρ c main_arg11 (by decide)]
  exact W1_arg11 m ρ c

theorem W2_v5 : W2 m ρ c (Proc.devRef .tc main_v5) = val_main_v3 (F := Ideal) (m ((c : Thread nD τ).loc main_arg3)) := by
  rw [W2_of_ne m ρ c main_v5 (by decide)]
  exact W1_v5 m ρ c

theorem W2_v3 : W2 m ρ c (Proc.devRef .tc main_v3) = val_main_v1 (F := Ideal) (m ((c : Thread nD τ).loc main_arg3)) := by
  rw [W2_of_ne m ρ c main_v3 (by decide)]
  exact W1_v3 m ρ c

theorem W2_v1 : W2 m ρ c (Proc.devRef .tc main_v1) = (truncf .bf16 (m ((c : Thread nD τ).loc main_arg0)) bitsLt_bf16_f32 : FVec Ideal S200000x64 .bf16) := by
  rw [W2_of_ne m ρ c main_v1 (by decide)]
  exact W1_v1 m ρ c

/-! ## After the second stretch -/

theorem W3_v25 : W3 m ρ c (Proc.devRef .tc main_v25) = val_main_v30 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  host_step
  rw [W2_v22, W2_v5]
  rfl

theorem W3_v27 : W3 m ρ c (Proc.devRef .tc main_v27) = val_main_v32 (F := Ideal) (m ((c : Thread nD τ).loc main_arg4)) := by
  host_step
  rw [W2_arg4]
  rfl

theorem W3_v29 : W3 m ρ c (Proc.devRef .tc main_v29) = val_main_v34 (F := Ideal) (m ((c : Thread nD τ).loc main_arg4)) := by
  host_step
  rw [W2_arg4]
  rfl

theorem W3_arg0 : W3 m ρ c (Proc.devRef .tc main_arg0) = (m ((c : Thread nD τ).loc main_arg0)) := by
  host_step
  exact W2_arg0 m ρ c

theorem W3_arg1 : W3 m ρ c (Proc.devRef .tc main_arg1) = (m ((c : Thread nD τ).loc main_arg1)) := by
  host_step
  exact W2_arg1 m ρ c

theorem W3_arg2 : W3 m ρ c (Proc.devRef .tc main_arg2) = (m ((c : Thread nD τ).loc main_arg2)) := by
  host_step
  exact W2_arg2 m ρ c

theorem W3_arg5 : W3 m ρ c (Proc.devRef .tc main_arg5) = (m ((c : Thread nD τ).loc main_arg5)) := by
  host_step
  exact W2_arg5 m ρ c

theorem W3_arg6 : W3 m ρ c (Proc.devRef .tc main_arg6) = (m ((c : Thread nD τ).loc main_arg6)) := by
  host_step
  exact W2_arg6 m ρ c

theorem W3_arg7 : W3 m ρ c (Proc.devRef .tc main_arg7) = (m ((c : Thread nD τ).loc main_arg7)) := by
  host_step
  exact W2_arg7 m ρ c

theorem W3_arg8 : W3 m ρ c (Proc.devRef .tc main_arg8) = (m ((c : Thread nD τ).loc main_arg8)) := by
  host_step
  exact W2_arg8 m ρ c

theorem W3_arg9 : W3 m ρ c (Proc.devRef .tc main_arg9) = (m ((c : Thread nD τ).loc main_arg9)) := by
  host_step
  exact W2_arg9 m ρ c

theorem W3_arg10 : W3 m ρ c (Proc.devRef .tc main_arg10) = (m ((c : Thread nD τ).loc main_arg10)) := by
  host_step
  exact W2_arg10 m ρ c

theorem W3_arg11 : W3 m ρ c (Proc.devRef .tc main_arg11) = (m ((c : Thread nD τ).loc main_arg11)) := by
  host_step
  exact W2_arg11 m ρ c

theorem W3_v5 : W3 m ρ c (Proc.devRef .tc main_v5) = val_main_v3 (F := Ideal) (m ((c : Thread nD τ).loc main_arg3)) := by
  host_step
  exact W2_v5 m ρ c

theorem W3_v3 : W3 m ρ c (Proc.devRef .tc main_v3) = val_main_v1 (F := Ideal) (m ((c : Thread nD τ).loc main_arg3)) := by
  host_step
  exact W2_v3 m ρ c

theorem W3_v1 : W3 m ρ c (Proc.devRef .tc main_v1) = (truncf .bf16 (m ((c : Thread nD τ).loc main_arg0)) bitsLt_bf16_f32 : FVec Ideal S200000x64 .bf16) := by
  host_step
  exact W2_v1 m ρ c

/-! ## At the linear region's exit -/

theorem W4_v30 : W4 m ρ c (Proc.devRef .tc main_v30) = linArr (m ((c : Thread nD τ).loc main_arg2)) (m ((c : Thread nD τ).loc main_arg9)) := by
  refine (W4_arr m ρ c 2).trans ?_
  rw [Region1.final (V3 m ρ) c]
  show linArr (W3 m ρ c (Proc.devRef .tc main_arg2)) (W3 m ρ c (Proc.devRef .tc main_arg9)) = _
  rw [W3_arg2, W3_arg9]

theorem W4_arg0 : W4 m ρ c (Proc.devRef .tc main_arg0) = (m ((c : Thread nD τ).loc main_arg0)) := by
  rw [W4_of_ne m ρ c main_arg0 (by decide)]
  exact W3_arg0 m ρ c

theorem W4_arg1 : W4 m ρ c (Proc.devRef .tc main_arg1) = (m ((c : Thread nD τ).loc main_arg1)) := by
  rw [W4_of_ne m ρ c main_arg1 (by decide)]
  exact W3_arg1 m ρ c

theorem W4_arg2 : W4 m ρ c (Proc.devRef .tc main_arg2) = (m ((c : Thread nD τ).loc main_arg2)) := by
  refine ((W4_arr m ρ c 0).trans (((dat1 (V3 m ρ) c).arrAt_in 0 rfl _).trans (A_eq1 (V3 m ρ) c 0))).trans ?_
  exact W3_arg2 m ρ c

theorem W4_arg5 : W4 m ρ c (Proc.devRef .tc main_arg5) = (m ((c : Thread nD τ).loc main_arg5)) := by
  rw [W4_of_ne m ρ c main_arg5 (by decide)]
  exact W3_arg5 m ρ c

theorem W4_arg6 : W4 m ρ c (Proc.devRef .tc main_arg6) = (m ((c : Thread nD τ).loc main_arg6)) := by
  rw [W4_of_ne m ρ c main_arg6 (by decide)]
  exact W3_arg6 m ρ c

theorem W4_arg7 : W4 m ρ c (Proc.devRef .tc main_arg7) = (m ((c : Thread nD τ).loc main_arg7)) := by
  rw [W4_of_ne m ρ c main_arg7 (by decide)]
  exact W3_arg7 m ρ c

theorem W4_arg8 : W4 m ρ c (Proc.devRef .tc main_arg8) = (m ((c : Thread nD τ).loc main_arg8)) := by
  rw [W4_of_ne m ρ c main_arg8 (by decide)]
  exact W3_arg8 m ρ c

theorem W4_arg10 : W4 m ρ c (Proc.devRef .tc main_arg10) = (m ((c : Thread nD τ).loc main_arg10)) := by
  rw [W4_of_ne m ρ c main_arg10 (by decide)]
  exact W3_arg10 m ρ c

theorem W4_arg11 : W4 m ρ c (Proc.devRef .tc main_arg11) = (m ((c : Thread nD τ).loc main_arg11)) := by
  rw [W4_of_ne m ρ c main_arg11 (by decide)]
  exact W3_arg11 m ρ c

theorem W4_v5 : W4 m ρ c (Proc.devRef .tc main_v5) = val_main_v3 (F := Ideal) (m ((c : Thread nD τ).loc main_arg3)) := by
  rw [W4_of_ne m ρ c main_v5 (by decide)]
  exact W3_v5 m ρ c

theorem W4_v3 : W4 m ρ c (Proc.devRef .tc main_v3) = val_main_v1 (F := Ideal) (m ((c : Thread nD τ).loc main_arg3)) := by
  rw [W4_of_ne m ρ c main_v3 (by decide)]
  exact W3_v3 m ρ c

theorem W4_v1 : W4 m ρ c (Proc.devRef .tc main_v1) = (truncf .bf16 (m ((c : Thread nD τ).loc main_arg0)) bitsLt_bf16_f32 : FVec Ideal S200000x64 .bf16) := by
  rw [W4_of_ne m ρ c main_v1 (by decide)]
  exact W3_v1 m ρ c

theorem W4_v25 : W4 m ρ c (Proc.devRef .tc main_v25) = val_main_v30 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  rw [W4_of_ne m ρ c main_v25 (by decide)]
  exact W3_v25 m ρ c

theorem W4_v27 : W4 m ρ c (Proc.devRef .tc main_v27) = val_main_v32 (F := Ideal) (m ((c : Thread nD τ).loc main_arg4)) := by
  rw [W4_of_ne m ρ c main_v27 (by decide)]
  exact W3_v27 m ρ c

theorem W4_v29 : W4 m ρ c (Proc.devRef .tc main_v29) = val_main_v34 (F := Ideal) (m ((c : Thread nD τ).loc main_arg4)) := by
  rw [W4_of_ne m ρ c main_v29 (by decide)]
  exact W3_v29 m ρ c

end Cert.Gnn.KV

end
-- ==== Proof.Region3.lean ====
/-
  The message kernel's region on the user side: the array it leaves holds every edge's message.

  The grid has 200 points; point t stages rows 5000·t … 5000·t + 4999 of the two gathered feature arrays, the two
  whole weight matrices and the two 1×64 bias rows, and writes back the same rows of the output.  So block t of the
  output is block t of the whole-array function "the message of edge e", and the 200 blocks tile the million edges.
-/
import proofs.«123556_j34076270526866_2_alg».proof.Proof.Gen.KernelIdeal.Frame
import proofs.«123556_j34076270526866_2_alg».proof.Proof.KernelBodies
import proofs.«123556_j34076270526866_2_alg».proof.Proof.Region0

set_option maxRecDepth 16384

noncomputable section

namespace Cert.Gnn.Region3

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

open Cert.Gnn.Region0 (msgArr)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two feature arrays and the output move together down the rows; the
    weights and the bias rows stay. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1600000 in
/-- What point t writes back is block t of the whole-array function. -/
theorem flushed_eq (c : Dev nD) (t : Fin cfg3.N) :
    (dat3 (F := Ideal) V c).flushed 6 t
      = ((cfg3.win 6).blk t).view.read (Elt Ideal)
          (msgArr (V c main_v61) (V c main_v68) (V c main_arg5) (V c main_v69) (V c main_arg7) (V c main_v70)) := by
  show (cfg3.win 6).cut (grid3.coords t) ((dat3 (F := Ideal) V c).after 6 t) = _
  rw [after3_6]
  unfold out3_6
  rw [View.canon_unit_zero origin]
  simp only [View.ld_unit_zero (S := S5000x64) origin, View.ld_unit_zero (S := S64x64) origin,
    View.ld_unit_zero (S := S1x64) origin]
  obtain ⟨e00, e01, e10, e11, e20, e21, e30, e31, e40, e41, e50, e51, e60, e61⟩ := index_maps t
  funext y
  obtain ⟨p, q, rfl⟩ : ∃ (p : Fin 5000) (q : Fin 64), y = ix2 p q := ⟨y 0, y 1, eq_ix2 y⟩
  have ht : t.val < 200 := lt_of_lt_of_eq t.isLt N_3
  have hr : t.val * 5000 + p.val < 1000000 := by have := p.isLt; omega
  have hemb : ((cfg3.win 6).blk t).view.emb (ix2 p q) = ix2 (⟨t.val * 5000 + p.val, hr⟩ : Fin 1000000) q := by
    funext a; apply Fin.ext
    match a with
    | ⟨0, _⟩ => show win3_6.index t (0 : Fin 2) * 5000 + 1 * p.val = t.val * 5000 + p.val; rw [e60]; omega
    | ⟨1, _⟩ => show win3_6.index t (1 : Fin 2) * 64 + 1 * q.val = q.val; rw [e61]; omega
  show k3_pay1 (F := Ideal) (iblk3 V c 0 t) (iblk3 V c 1 t) (iblk3 V c 2 t) (iblk3 V c 4 t) (iblk3 V c 3 t) (iblk3 V c 5 t) (ix2 p q)
    = msgArr (V c main_v61) (V c main_v68) (V c main_arg5) (V c main_v69) (V c main_arg7) (V c main_v70)
        (((cfg3.win 6).blk t).view.emb (ix2 p q))
  rw [hemb, Bodies.msg_pay3_eq, Bodies.msg_pay_apply]
  unfold msgArr
  show msgRow (rowOf (iblk3 V c 0 t) p) (rowOf (iblk3 V c 1 t) p) (matOf (iblk3 V c 2 t)) (matOf (iblk3 V c 4 t))
      (rowOf1 (iblk3 V c 3 t)) (rowOf1 (iblk3 V c 5 t)) q
    = msgRow (rowOf (V c main_v61) ⟨t.val * 5000 + p.val, hr⟩) (rowOf (V c main_v68) ⟨t.val * 5000 + p.val, hr⟩)
      (matOf (V c main_arg5)) (matOf (V c main_arg7)) (rowOf1 (V c main_v69)) (rowOf1 (V c main_v70)) q
  have h0 : rowOf (iblk3 (F := Ideal) V c 0 t) p = rowOf (V c main_v61) ⟨t.val * 5000 + p.val, hr⟩ := by
    funext k
    show V c main_v61 (((cfg3.win 0).blk t).view.emb (ix2 p k)) = V c main_v61 (ix2 _ k)
    refine congrArg _ (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 64 + 1 * k.val = k.val; rw [e01]; omega
  have h1 : rowOf (iblk3 (F := Ideal) V c 1 t) p = rowOf (V c main_v68) ⟨t.val * 5000 + p.val, hr⟩ := by
    funext k
    show V c main_v68 (((cfg3.win 1).blk t).view.emb (ix2 p k)) = V c main_v68 (ix2 _ k)
    refine congrArg _ (funext fun a => Fin.ext ?_)
    match a with
    | ⟨0, _⟩ => show win3_1.index t (0 : Fin 2) * 5000 + 1 * p.val = t.val * 5000 + p.val; rw [e10]; omega
    | ⟨1, _⟩ => show win3_1.index t (1 : Fin 2) * 64 + 1 * k.val = k.val; rw [e11]; omega
  have h2 : matOf (iblk3 (F := Ideal) V c 2 t) = matOf (V c main_arg5) := by
    funext k q'
    show V c main_arg5 (((cfg3.win 2).blk t).view.emb (ix2 k q')) = V c main_arg5 (ix2 k q')
    refine congrArg _ (funext fun a => Fin.ext ?_)
    match a with
    | ⟨0, _⟩ => show win3_2.index t (0 : Fin 2) * 64 + 1 * k.val = k.val; rw [e20]; omega
    | ⟨1, _⟩ => show win3_2.index t (1 : Fin 2) * 64 + 1 * q'.val = q'.val; rw [e21]; omega
  have h4 : matOf (iblk3 (F := Ideal) V c 4 t) = matOf (V c main_arg7) := by
    funext k q'
    show V c main_arg7 (((cfg3.win 4).blk t).view.emb (ix2 k q')) = V c main_arg7 (ix2 k q')
    refine congrArg _ (funext fun a => Fin.ext ?_)
    match a with
    | ⟨0, _⟩ => show win3_4.index t (0 : Fin 2) * 64 + 1 * k.val = k.val; rw [e40]; omega
    | ⟨1, _⟩ => show win3_4.index t (1 : Fin 2) * 64 + 1 * q'.val = q'.val; rw [e41]; omega
  have h3 : rowOf1 (iblk3 (F := Ideal) V c 3 t) = rowOf1 (V c main_v69) := by
    funext k
    show V c main_v69 (((cfg3.win 3).blk t).view.emb (ix2 0 k)) = V c main_v69 (ix2 0 k)
    refine congrArg _ (funext fun a => Fin.ext ?_)
    match a with
    | ⟨0, _⟩ => show win3_3.index t (0 : Fin 2) * 1 + 1 * 0 = 0; rw [e30]
    | ⟨1, _⟩ => show win3_3.index t (1 : Fin 2) * 64 + 1 * k.val = k.val; rw [e31]; omega
  have h5 : rowOf1 (iblk3 (F := Ideal) V c 5 t) = rowOf1 (V c main_v70) := by
    funext k
    show V c main_v70 (((cfg3.win 5).blk t).view.emb (ix2 0 k)) = V c main_v70 (ix2 0 k)
    refine congrArg _ (funext fun a => Fin.ext ?_)
    match a with
    | ⟨0, _⟩ => show win3_5.index t (0 : Fin 2) * 1 + 1 * 0 = 0; rw [e50]
    | ⟨1, _⟩ => show win3_5.index t (1 : Fin 2) * 64 + 1 * k.val = k.val; rw [e51]; omega
  rw [h0, h1, h2, h3, h4, h5]

/-- An index of the output is in point t's block iff each coordinate is in the block's range on its axis. -/
theorem mem_blk (t : Fin cfg3.N) (i : S1000000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v71).slice (win3_6.rect t)).set ↔ _
  rw [View.set_slice_whole, Rect.mem_set_unit]
  exact Iff.rfl

/-- Edge e of the output lies in the block of point e / 5000. -/
theorem cover (i : S1000000x64.Idx) :
    ∃ t : Fin cfg3.N, (cfg3.win 6).flush t = true ∧ i ∈ ((cfg3.win 6).blk t).view.set := by
  have hi0 : (i 0).val < 1000000 := (i 0).isLt
  have hi1 : (i 1).val < 64 := (i 1).isLt
  have hN : cfg3.N = 200 := N_3
  have hlt : (i 0).val / 5000 < cfg3.N := by rw [hN]; omega
  obtain ⟨e00, e01, e10, e11, e20, e21, e30, e31, e40, e41, e50, e51, e60, e61⟩ := index_maps ⟨(i 0).val / 5000, hlt⟩
  refine ⟨⟨(i 0).val / 5000, hlt⟩, flush3_6 _, ?_⟩
  rw [mem_blk]
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, hlt⟩ (1 : Fin 2) * 64 ≤ (i 1).val
      ∧ (i 1).val < win3_6.index ⟨(i 0).val / 5000, hlt⟩ (1 : Fin 2) * 64 + 64
    rw [e61]; omega

/-- The array the region leaves: every edge's message, whatever the region found in the output. -/
theorem final (c : Dev nD) :
    (dat3 (F := Ideal) V c).arrAt 6 cfg3.N
      = msgArr (V c main_v61) (V c main_v68) (V c main_arg5) (V c main_v69) (V c main_arg7) (V c main_v70) :=
  (dat3 (F := Ideal) V c).arrAt_eq_of_cover 6 _ (fun t _ => flushed_eq V c t) cover

end Cert.Gnn.Region3

end
-- ==== Proof.Boundaries2.lean ====
/-
  The contents of the kernel program's buffers at each boundary from the node-update region on, down to the two results: each as a pure term of the argument arrays, and in the end the reference's own two result terms.
-/
import proofs.«123556_j34076270526866_2_alg».proof.Proof.Boundaries1
import proofs.«123556_j34076270526866_2_alg».proof.Proof.Region2
import proofs.«123556_j34076270526866_2_alg».proof.Proof.Region3

set_option maxRecDepth 16384
set_option maxHeartbeats 2000000

noncomputable section

namespace Cert.Gnn.KV

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read
open Cert.Gnn.Region0 (msgArr)
open Cert.Gnn.Region1 (linArr)
open Cert.Gnn.Region2 (rootArr)

variable (m : (ℓ : Loc nD τ sig) → Buf (Elt Ideal) ℓ) (ρ : Dev nD → PrngReg) (c : Dev nD)

/-! ## After the third stretch -/

theorem W5_v40 : W5 m ρ c (Proc.devRef .tc main_v40) = val_main_v45 (F := Ideal) (m ((c : Thread nD τ).loc main_arg2)) (m ((c : Thread nD τ).loc main_arg4)) (m ((c : Thread nD τ).loc main_arg9)) := by
  host_step
  rw [W4_v30, W4_v27, W4_v29,
    Bridge.gather_lin gather_S400000x64_S1000000x1_S1000000x64_1_0_n_n_0_1_164 rfl rfl rfl rfl rfl rfl rfl
      Cert.ReferenceIdeal.dot_S1000000x64_S64x64_S1000000x64_1_0_0_1_n_n rfl]
  rfl

theorem W5_v49 : W5 m ρ c (Proc.devRef .tc main_v49) = shapeCast S400000x1 (Host.divf (F := Ideal) (φ := .f32) (val_main_v50 (F := Ideal)) (maximumf (F := Ideal) (φ := .f32) (val_main_v49 (F := Ideal) (m ((c : Thread nD τ).loc main_arg4))) (val_main_v50 (F := Ideal)))) shapeCasts_S400000_S400000x1 := by
  host_step
  rw [W4_v29]
  rfl

theorem W5_v50 : W5 m ρ c (Proc.devRef .tc main_v50) = shapeCast S1x64 (m ((c : Thread nD τ).loc main_arg11)) shapeCasts_S64_S1x64 := by
  host_step
  rw [W4_arg11]
  rfl

theorem W5_arg0 : W5 m ρ c (Proc.devRef .tc main_arg0) = (m ((c : Thread nD τ).loc main_arg0)) := by
  host_step
  exact W4_arg0 m ρ c

theorem W5_arg1 : W5 m ρ c (Proc.devRef .tc main_arg1) = (m ((c : Thread nD τ).loc main_arg1)) := by
  host_step
  exact W4_arg1 m ρ c

theorem W5_arg2 : W5 m ρ c (Proc.devRef .tc main_arg2) = (m ((c : Thread nD τ).loc main_arg2)) := by
  host_step
  exact W4_arg2 m ρ c

theorem W5_arg5 : W5 m ρ c (Proc.devRef .tc main_arg5) = (m ((c : Thread nD τ).loc main_arg5)) := by
  host_step
  exact W4_arg5 m ρ c

theorem W5_arg6 : W5 m ρ c (Proc.devRef .tc main_arg6) = (m ((c : Thread nD τ).loc main_arg6)) := by
  host_step
  exact W4_arg6 m ρ c

theorem W5_arg7 : W5 m ρ c (Proc.devRef .tc main_arg7) = (m ((c : Thread nD τ).loc main_arg7)) := by
  host_step
  exact W4_arg7 m ρ c

theorem W5_arg8 : W5 m ρ c (Proc.devRef .tc main_arg8) = (m ((c : Thread nD τ).loc main_arg8)) := by
  host_step
  exact W4_arg8 m ρ c

theorem W5_arg10 : W5 m ρ c (Proc.devRef .tc main_arg10) = (m ((c : Thread nD τ).loc main_arg10)) := by
  host_step
  exact W4_arg10 m ρ c

theorem W5_v5 : W5 m ρ c (Proc.devRef .tc main_v5) = val_main_v3 (F := Ideal) (m ((c : Thread nD τ).loc main_arg3)) := by
  host_step
  exact W4_v5 m ρ c

theorem W5_v3 : W5 m ρ c (Proc.devRef .tc main_v3) = val_main_v1 (F := Ideal) (m ((c : Thread nD τ).loc main_arg3)) := by
  host_step
  exact W4_v3 m ρ c

theorem W5_v1 : W5 m ρ c (Proc.devRef .tc main_v1) = (truncf .bf16 (m ((c : Thread nD τ).loc main_arg0)) bitsLt_bf16_f32 : FVec Ideal S200000x64 .bf16) := by
  host_step
  exact W4_v1 m ρ c

theorem W5_v25 : W5 m ρ c (Proc.devRef .tc main_v25) = val_main_v30 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  host_step
  exact W4_v25 m ρ c

/-! ## At the node-update region's exit -/

theorem W6_v51 : W6 m ρ c (Proc.devRef .tc main_v51) = val_main_v59 (F := Ideal) (m ((c : Thread nD τ).loc main_arg2)) (m ((c : Thread nD τ).loc main_arg4)) (m ((c : Thread nD τ).loc main_arg9)) (m ((c : Thread nD τ).loc main_arg10)) (m ((c : Thread nD τ).loc main_arg11)) := by
  refine (W6_arr m ρ c 5).trans ?_
  rw [Region2.final (V5 m ρ) c]
  show rootArr (W5 m ρ c (Proc.devRef .tc main_v40)) (W5 m ρ c (Proc.devRef .tc main_v49)) (W5 m ρ c (Proc.devRef .tc main_arg2)) (W5 m ρ c (Proc.devRef .tc main_arg10))
    (W5 m ρ c (Proc.devRef .tc main_v50)) = _
  rw [W5_v40, W5_v49, W5_arg2, W5_arg10, W5_v50, Bridge.root_bridge, Bridge.v59_eq]

theorem W6_arg0 : W6 m ρ c (Proc.devRef .tc main_arg0) = (m ((c : Thread nD τ).loc main_arg0)) := by
  rw [W6_of_ne m ρ c main_arg0 (by decide)]
  exact W5_arg0 m ρ c

theorem W6_arg1 : W6 m ρ c (Proc.devRef .tc main_arg1) = (m ((c : Thread nD τ).loc main_arg1)) := by
  rw [W6_of_ne m ρ c main_arg1 (by decide)]
  exact W5_arg1 m ρ c

theorem W6_arg5 : W6 m ρ c (Proc.devRef .tc main_arg5) = (m ((c : Thread nD τ).loc main_arg5)) := by
  rw [W6_of_ne m ρ c main_arg5 (by decide)]
  exact W5_arg5 m ρ c

theorem W6_arg6 : W6 m ρ c (Proc.devRef .tc main_arg6) = (m ((c : Thread nD τ).loc main_arg6)) := by
  rw [W6_of_ne m ρ c main_arg6 (by decide)]
  exact W5_arg6 m ρ c

theorem W6_arg7 : W6 m ρ c (Proc.devRef .tc main_arg7) = (m ((c : Thread nD τ).loc main_arg7)) := by
  rw [W6_of_ne m ρ c main_arg7 (by decide)]
  exact W5_arg7 m ρ c

theorem W6_arg8 : W6 m ρ c (Proc.devRef .tc main_arg8) = (m ((c : Thread nD τ).loc main_arg8)) := by
  rw [W6_of_ne m ρ c main_arg8 (by decide)]
  exact W5_arg8 m ρ c

theorem W6_v5 : W6 m ρ c (Proc.devRef .tc main_v5) = val_main_v3 (F := Ideal) (m ((c : Thread nD τ).loc main_arg3)) := by
  rw [W6_of_ne m ρ c main_v5 (by decide)]
  exact W5_v5 m ρ c

theorem W6_v3 : W6 m ρ c (Proc.devRef .tc main_v3) = val_main_v1 (F := Ideal) (m ((c : Thread nD τ).loc main_arg3)) := by
  rw [W6_of_ne m ρ c main_v3 (by decide)]
  exact W5_v3 m ρ c

theorem W6_v1 : W6 m ρ c (Proc.devRef .tc main_v1) = (truncf .bf16 (m ((c : Thread nD τ).loc main_arg0)) bitsLt_bf16_f32 : FVec Ideal S200000x64 .bf16) := by
  rw [W6_of_ne m ρ c main_v1 (by decide)]
  exact W5_v1 m ρ c

theorem W6_v25 : W6 m ρ c (Proc.devRef .tc main_v25) = val_main_v30 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  rw [W6_of_ne m ρ c main_v25 (by decide)]
  exact W5_v25 m ρ c

/-! ## After the fourth stretch -/

theorem W7_v54 : W7 m ρ c (Proc.devRef .tc main_v54) = val_main_v62 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  host_step
  rw [W6_v51, W6_v25, W6_arg1]
  rfl

theorem W7_v61 : W7 m ρ c (Proc.devRef .tc main_v61) = val_main_v17 (F := Ideal) (m ((c : Thread nD τ).loc main_arg0)) (m ((c : Thread nD τ).loc main_arg3)) := by
  host_step
  rw [W6_v1, W6_v5]
  rfl

theorem W7_v68 : W7 m ρ c (Proc.devRef .tc main_v68) = val_main_v10 (F := Ideal) (m ((c : Thread nD τ).loc main_arg0)) (m ((c : Thread nD τ).loc main_arg3)) := by
  host_step
  rw [W6_v1, W6_v3]
  rfl

theorem W7_v69 : W7 m ρ c (Proc.devRef .tc main_v69) = shapeCast S1x64 (m ((c : Thread nD τ).loc main_arg6)) shapeCasts_S64_S1x64 := by
  host_step
  rw [W6_arg6]
  rfl

theorem W7_v70 : W7 m ρ c (Proc.devRef .tc main_v70) = shapeCast S1x64 (m ((c : Thread nD τ).loc main_arg8)) shapeCasts_S64_S1x64 := by
  host_step
  rw [W6_arg8]
  rfl

theorem W7_arg0 : W7 m ρ c (Proc.devRef .tc main_arg0) = (m ((c : Thread nD τ).loc main_arg0)) := by
  host_step
  exact W6_arg0 m ρ c

theorem W7_arg5 : W7 m ρ c (Proc.devRef .tc main_arg5) = (m ((c : Thread nD τ).loc main_arg5)) := by
  host_step
  exact W6_arg5 m ρ c

theorem W7_arg7 : W7 m ρ c (Proc.devRef .tc main_arg7) = (m ((c : Thread nD τ).loc main_arg7)) := by
  host_step
  exact W6_arg7 m ρ c

theorem W7_v3 : W7 m ρ c (Proc.devRef .tc main_v3) = val_main_v1 (F := Ideal) (m ((c : Thread nD τ).loc main_arg3)) := by
  host_step
  exact W6_v3 m ρ c

/-! ## At the second message region's exit -/

theorem W8_v71 : W8 m ρ c (Proc.devRef .tc main_v71) = val_main_v97 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  refine (W8_arr m ρ c 6).trans ?_
  rw [Region3.final (V7 m ρ) c]
  show msgArr (W7 m ρ c (Proc.devRef .tc main_v61)) (W7 m ρ c (Proc.devRef .tc main_v68)) (W7 m ρ c (Proc.devRef .tc main_arg5)) (W7 m ρ c (Proc.devRef .tc main_v69))
    (W7 m ρ c (Proc.devRef .tc main_arg7)) (W7 m ρ c (Proc.devRef .tc main_v70)) = _
  rw [W7_v61, W7_v68, W7_arg5, W7_v69, W7_arg7, W7_v70, Bridge.msg_bridge, Bridge.v97_eq]

theorem W8_arg0 : W8 m ρ c (Proc.devRef .tc main_arg0) = (m ((c : Thread nD τ).loc main_arg0)) := by
  rw [W8_of_ne m ρ c main_arg0 (by decide)]
  exact W7_arg0 m ρ c

theorem W8_v3 : W8 m ρ c (Proc.devRef .tc main_v3) = val_main_v1 (F := Ideal) (m ((c : Thread nD τ).loc main_arg3)) := by
  rw [W8_of_ne m ρ c main_v3 (by decide)]
  exact W7_v3 m ρ c

theorem W8_v54 : W8 m ρ c (Proc.devRef .tc main_v54) = val_main_v62 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W8_of_ne m ρ c main_v54 (by decide)]
  exact W7_v54 m ρ c

/-! ## The two results -/

theorem W9_v75 : W9 m ρ c (Proc.devRef .tc main_v75) = val_main_v101 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  host_step
  rw [W8_v71, W8_v3, W8_arg0, Bridge.v101_eq]
  rfl

theorem W9_v54 : W9 m ρ c (Proc.devRef .tc main_v54) = val_main_v62 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  host_step
  exact W8_v54 m ρ c

end Cert.Gnn.KV

end
-- ==== Proof.lean ====
/-
  The kernel program and its reference compute the same two arrays over the extended reals.

  The network has a collaborative-filtering layer on the movies and on the users — every edge sends
  ((x_j·W1 + b1) + (x_i ∘ x_j)·W2) + b2, summed at the edge's target — and a relational layer on the entities: the mean
  over a node's incoming edges of x_j·Wrel, plus x·Wroot + b.  Each result is the node features joined lane-wise with
  the layer's output.

  The kernel program computes the edge messages in a gridded kernel region over blocks of 5000 edges, the relational
  transform once per node in a second region (gathering the transformed rows afterwards), and the node update in a
  third, multiplying the aggregate by 1 / max(count, 1); the gathers, the scatter-additions and the final joins are
  host operations in both programs, written with the same dimension numbers.  So the two programs differ in four
  places only (Proof/Bridge.lean), and everywhere else their terms coincide operation by operation; no law used
  needs a finite input, and the precondition is never opened.

  The kernel's run is read off its frame: the buffer contents at every boundary between a stretch of host
  operations and a region are a fold of pure terms (Proof/Boundaries1.lean, Proof/Boundaries2.lean), a region's
  output being one whole-array function of the arrays it finds (Proof/Region0.lean … Proof/Region3.lean), and the
  fold ends at the reference's own result terms.
-/
import proofs.«123556_j34076270526866_2_alg».proof.Defs
import proofs.«123556_j34076270526866_2_alg».proof.Proof.Gen.Kernel
import proofs.«123556_j34076270526866_2_alg».proof.Proof.Gen.Kernel.Skeleton
import proofs.«123556_j34076270526866_2_alg».proof.Proof.Gen.Kernel.Launch
import proofs.«123556_j34076270526866_2_alg».proof.Proof.Gen.Kernel.Points
import proofs.«123556_j34076270526866_2_alg».proof.Proof.Gen.Kernel.Frame
import proofs.«123556_j34076270526866_2_alg».proof.Proof.Gen.KernelIdeal
import proofs.«123556_j34076270526866_2_alg».proof.Proof.Gen.KernelIdeal.Skeleton
import proofs.«123556_j34076270526866_2_alg».proof.Proof.Gen.KernelIdeal.Launch
import proofs.«123556_j34076270526866_2_alg».proof.Proof.Gen.KernelIdeal.Points
import proofs.«123556_j34076270526866_2_alg».proof.Proof.Gen.KernelIdeal.Frame
import proofs.«123556_j34076270526866_2_alg».proof.Proof.Gen.ReferenceIdeal
import proofs.«123556_j34076270526866_2_alg».proof.Proof.Gen.Pre_finite_inputs
import proofs.«123556_j34076270526866_2_alg».proof.Proof.Gen.ReferenceIdeal.Read
import proofs.«123556_j34076270526866_2_alg».proof.Proof.KernelRun
import proofs.«123556_j34076270526866_2_alg».proof.Proof.Boundaries2
import Idealize.ShloMosaic.Adequacy
import Idealize.ShloMosaic.Init

noncomputable section

namespace Cert.Proof

open Idealize.ShloMosaic Idealize.ShloMosaic.TcCoe Idealize.SL.Sem

/-- The word-level program terminates, faults nowhere and keeps its arguments. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's result terms of the (agreeing) arguments. -/
theorem algebraic : Cert.algebraic_KernelIdeal_ReferenceIdeal := by
  intro m ρ m' ρ' _ hagree
  refine ⟨fun c => Cert.KernelIdeal.Gen.W9 m ρ c (Proc.devRef .tc Cert.KernelIdeal.main_v75),
    fun c => Cert.KernelIdeal.Gen.W9 m ρ c (Proc.devRef .tc Cert.KernelIdeal.main_v54),
    Cert.Gnn.KernelRun.run_results m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11⟩ := hagree c
    refine (h c).1.trans ?_
    rw [Cert.ReferenceIdeal.Read.val_main_v101_eq, a0, a3, a5, a6, a7, a8]
    exact (Cert.Gnn.KV.W9_v75 m ρ c).symm
  · obtain ⟨a0, a1, a2, a3, a4, a5, a6, a7, a8, a9, a10, a11⟩ := hagree c
    refine (h c).2.1.trans ?_
    rw [Cert.ReferenceIdeal.Read.val_main_v62_eq, a1, a2, a3, a4, a5, a6, a7, a8, a9, a10, a11]
    exact (Cert.Gnn.KV.W9_v54 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
